-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x128 .f32) (main_arg14 : FVec F S128 .f32) (main_arg15 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x800000 32) (main_arg3 : IVec S2x800000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 114
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S1x800000, .i32⟩
  | .hbm, ⟨26, _⟩ => ⟨S800000, .i32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S50000x1, .f32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S50000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x128, .f32⟩
  | .hbm, ⟨54, _⟩ => ⟨S1x800000, .i32⟩
  | .hbm, ⟨55, _⟩ => ⟨S800000, .i32⟩
  | .hbm, ⟨56, _⟩ => ⟨S1x800000, .i32⟩
  | .hbm, ⟨57, _⟩ => ⟨S800000, .i32⟩
  | .hbm, ⟨58, _⟩ => ⟨S50000x128, .bf16⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .bf16⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S1x800000, .i32⟩
  | .hbm, ⟨75, _⟩ => ⟨S800000, .i32⟩
  | .hbm, ⟨76, _⟩ => ⟨S1x800000, .i32⟩
  | .hbm, ⟨77, _⟩ => ⟨S800000, .i32⟩
  | .hbm, ⟨78, _⟩ => ⟨S50000x128, .bf16⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .bf16⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S1x800000, .i32⟩
  | .hbm, ⟨95, _⟩ => ⟨S800000, .i32⟩
  | .hbm, ⟨96, _⟩ => ⟨S1x800000, .i32⟩
  | .hbm, ⟨97, _⟩ => ⟨S800000, .i32⟩
  | .hbm, ⟨98, _⟩ => ⟨S50000x128, .bf16⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .bf16⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_11 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x800000_S1x800000_0_0 : S2x800000.Slices ![0, 0] S1x800000
  bitsLt_bf16_f32 : FTy.bits .bf16 < FTy.bits .f32
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x800000, .i32⟩
  | 93 => ⟨S800000, .i32⟩
  | 94 => ⟨S1x800000, .i32⟩
  | 95 => ⟨S800000, .i32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S50000x128, .f32⟩
  | 127 => ⟨S1x800000, .i32⟩
  | _ => ⟨S50000x128, .f32⟩

abbrev hbmTy0_1 (i : Nat) : BufTy := match i % 128 with
  | 0 => ⟨S800000, .i32⟩
  | 1 => ⟨S1x800000, .i32⟩
  | 2 => ⟨S800000, .i32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_16 : Ref sig .tc := ⟨.hbm, 131, rfl⟩
abbrev main_v93 : Ref sig .tc := ⟨.hbm, 132, rfl⟩
abbrev main_v94 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_19 : Ref sig .tc := ⟨.hbm, 144, rfl⟩
abbrev main_v103 : Ref sig .tc := ⟨.hbm, 145, rfl⟩
abbrev main_cst_20 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_21 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its two result arrays named.

  @main is four stretches of host operations, each followed by one combine kernel. The contents of the
  TensorCore's buffers at the eight boundaries are a fold from the launch memory: after a stretch, the
  stretch's operations applied to what the boundary before held; after a kernel, the kernel's arrays at what its
  write-backs leave and every other buffer as it was. Every weakly fair execution ends, without a fault, with
  every unscoped buffer at the last boundary's contents. So the second-layer user rows (`main_v81`) and item
  rows (`main_v64`) end at the last boundary's contents of their buffers, and the sixteen arguments end as
  launched. What those contents are, as functions of the arguments, is read off the fold elsewhere.
-/
import proofs.«127813_j67362267070926_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last
    boundary's contents of their buffers and the arguments as launched. -/
theorem run : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Results

end
-- ==== Proof.HostTerms.lean ====
/-
  The host operations between the kernels, as functions of the arrays they read.

  Every stretch of host operations in the kernel's program builds the same three things from an edge array
  `e` (row 0 the source node of each edge, row 1 its destination) and a feature array `x`:
  * `dstColumn e`: the destination row of every edge, as a column of indices;
  * `srcColumn e`: the source row of every edge, a negative index first moved up by the 50000 rows, as a column;
  * `neighbourSum x e`: for every destination row the sum of the source rows' features — the rows of `x`
    gathered at `srcColumn e` and added into an all-zero array at `dstColumn e` (the features pass through the
    half-precision format on the way, which is the identity on the extended reals);
  and the first stretch also builds `degreeColumn e`: ones added into an all-zero vector at `dstColumn e`, the
  in-degree of every row, set as a column.
  Each stretch is read here at ANY contents `W` of the buffers before it: the buffer it fills is the named
  function of the buffers it reads (`after0_deg_ui` … `after3_sum`), and the buffers it does not write are as
  before (`keepJ_<buffer>`).
-/
import proofs.«127813_j67362267070926_2_alg».proof.Proof.Gen.KernelIdeal.Launch
import Idealize.ShloMosaic.Lib.StableHlo.Run
import Idealize.ShloMosaic.PureOps.Ideal

noncomputable section

namespace Cert.KernelIdeal.HostTerms

open Cert.KernelIdeal Cert.KernelIdeal.Gen Idealize.ShloMosaic Idealize.ShloMosaic.TcCoe Idealize.SL.Sem Idealize.ShloMosaic.StableHlo

/-- An edge array: two rows of 800000 node numbers. -/
abbrev Edges : Type := (⟨S2x800000, .i32⟩ : BufTy).Contents (Elt Ideal)

/-- Row `k` of an edge array as a flat vector. -/
def srcRow (e : Edges) : IVec S800000 32 :=
  shapeCast S800000 (extractStridedSlice S1x800000 ![0, 0] e slices_S2x800000_S1x800000_0_0) shapeCasts_S1x800000_S800000
def dstRow (e : Edges) : IVec S800000 32 :=
  shapeCast S800000 (extractStridedSlice S1x800000 ![1, 0] e slices_S2x800000_S1x800000_1_0) shapeCasts_S1x800000_S800000

/-- The destination row of every edge, as a column of indices. -/
def dstColumn (e : Edges) : IVec S800000x1 32 :=
  broadcastInDim S800000x1 ![0] bcast_S800000_S800000x1_0 (dstRow e)

/-- The source row of every edge, a negative number first moved up by 50000, as a column of indices. -/
def srcColumn (e : Edges) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The in-degree of every row (ones added at the edges' destinations), set as a column. -/
def degreeColumn (e : Edges) : FVec Ideal S50000x1 .f32 :=
  shapeCast S50000x1
    (Host.scatterAdd (F := Ideal) scatter_S50000_S800000x1_S800000_n_0_0_1
      (broadcastInDim S50000 ![] bcast_S_S50000 (constant (F := Ideal) S_ .f32 0x00000000#32)) (dstColumn e)
      (broadcastInDim S800000 ![] bcast_S_S800000 (constant (F := Ideal) S_ .f32 0x3F800000#32)))
    shapeCasts_S50000_S50000x1

/-- For every destination row, the sum of its edges' source rows of `x`. -/
def neighbourSum (x : FVec Ideal S50000x128 .f32) (e : Edges) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstColumn e)
    (extf .f32 (Host.gather gather_S50000x128_S800000x1_S800000x128_1_0_n_n_0_1_1128
      (truncf .bf16 x bitsLt_bf16_f32) (srcColumn e)) bitsLt_bf16_f32)

variable (W : Valuation τ sig (Elt Ideal))

/-! ## What each stretch fills -/

set_option maxHeartbeats 16000000 in
theorem after0_deg_ui : StableHlo.after (hostOps0 (F := Ideal)) W (Proc.devRef .tc main_v6) = degreeColumn (W (Proc.devRef .tc main_arg2)) := by
  after_results_simp
  rfl

set_option maxHeartbeats 16000000 in
theorem after0_deg_iu : StableHlo.after (hostOps0 (F := Ideal)) W (Proc.devRef .tc main_v13) = degreeColumn (W (Proc.devRef .tc main_arg3)) := by
  after_results_simp
  rfl

set_option maxHeartbeats 16000000 in
theorem after0_sum : StableHlo.after (hostOps0 (F := Ideal)) W (Proc.devRef .tc main_v29)
    = neighbourSum (W (Proc.devRef .tc main_arg0)) (W (Proc.devRef .tc main_arg2)) := by
  after_results_simp
  rfl

set_option maxHeartbeats 16000000 in
theorem after1_sum : StableHlo.after (hostOps1 (F := Ideal)) W (Proc.devRef .tc main_v46)
    = neighbourSum (W (Proc.devRef .tc main_arg1)) (W (Proc.devRef .tc main_arg3)) := by
  after_results_simp
  rfl

set_option maxHeartbeats 16000000 in
theorem after2_sum : StableHlo.after (hostOps2 (F := Ideal)) W (Proc.devRef .tc main_v63)
    = neighbourSum (W (Proc.devRef .tc main_v47)) (W (Proc.devRef .tc main_arg2)) := by
  after_results_simp
  rfl

set_option maxHeartbeats 16000000 in
theorem after3_sum : StableHlo.after (hostOps3 (F := Ideal)) W (Proc.devRef .tc main_v80)
    = neighbourSum (W (Proc.devRef .tc main_v30)) (W (Proc.devRef .tc main_arg3)) := by
  after_results_simp
  rfl

/-! ## What each stretch leaves alone -/

/-- A buffer none of a stretch's operations writes holds after the stretch what it held before: each operation's
    written buffer is another one. -/
macro "host_keeps" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ### Stretch 0 writes none of these -/
theorem keep0_arg0 : StableHlo.after (hostOps0 (F := Ideal)) W (Proc.devRef .tc main_arg0) = W (Proc.devRef .tc main_arg0) := by host_keeps
theorem keep0_arg1 : StableHlo.after (hostOps0 (F := Ideal)) W (Proc.devRef .tc main_arg1) = W (Proc.devRef .tc main_arg1) := by host_keeps
theorem keep0_arg2 : StableHlo.after (hostOps0 (F := Ideal)) W (Proc.devRef .tc main_arg2) = W (Proc.devRef .tc main_arg2) := by host_keeps
theorem keep0_arg3 : StableHlo.after (hostOps0 (F := Ideal)) W (Proc.devRef .tc main_arg3) = W (Proc.devRef .tc main_arg3) := by host_keeps
theorem keep0_arg4 : StableHlo.after (hostOps0 (F := Ideal)) W (Proc.devRef .tc main_arg4) = W (Proc.devRef .tc main_arg4) := by host_keeps
theorem keep0_arg5 : StableHlo.after (hostOps0 (F := Ideal)) W (Proc.devRef .tc main_arg5) = W (Proc.devRef .tc main_arg5) := by host_keeps
theorem keep0_arg6 : StableHlo.after (hostOps0 (F := Ideal)) W (Proc.devRef .tc main_arg6) = W (Proc.devRef .tc main_arg6) := by host_keeps
theorem keep0_arg7 : StableHlo.after (hostOps0 (F := Ideal)) W (Proc.devRef .tc main_arg7) = W (Proc.devRef .tc main_arg7) := by host_keeps
theorem keep0_arg8 : StableHlo.after (hostOps0 (F := Ideal)) W (Proc.devRef .tc main_arg8) = W (Proc.devRef .tc main_arg8) := by host_keeps
theorem keep0_arg9 : StableHlo.after (hostOps0 (F := Ideal)) W (Proc.devRef .tc main_arg9) = W (Proc.devRef .tc main_arg9) := by host_keeps
theorem keep0_arg10 : StableHlo.after (hostOps0 (F := Ideal)) W (Proc.devRef .tc main_arg10) = W (Proc.devRef .tc main_arg10) := by host_keeps
theorem keep0_arg11 : StableHlo.after (hostOps0 (F := Ideal)) W (Proc.devRef .tc main_arg11) = W (Proc.devRef .tc main_arg11) := by host_keeps
theorem keep0_arg12 : StableHlo.after (hostOps0 (F := Ideal)) W (Proc.devRef .tc main_arg12) = W (Proc.devRef .tc main_arg12) := by host_keeps
theorem keep0_arg13 : StableHlo.after (hostOps0 (F := Ideal)) W (Proc.devRef .tc main_arg13) = W (Proc.devRef .tc main_arg13) := by host_keeps
theorem keep0_arg14 : StableHlo.after (hostOps0 (F := Ideal)) W (Proc.devRef .tc main_arg14) = W (Proc.devRef .tc main_arg14) := by host_keeps
theorem keep0_arg15 : StableHlo.after (hostOps0 (F := Ideal)) W (Proc.devRef .tc main_arg15) = W (Proc.devRef .tc main_arg15) := by host_keeps

/-! ### Stretch 1 writes none of these -/
theorem keep1_v13 : StableHlo.after (hostOps1 (F := Ideal)) W (Proc.devRef .tc main_v13) = W (Proc.devRef .tc main_v13) := by host_keeps
theorem keep1_v6 : StableHlo.after (hostOps1 (F := Ideal)) W (Proc.devRef .tc main_v6) = W (Proc.devRef .tc main_v6) := by host_keeps
theorem keep1_v30 : StableHlo.after (hostOps1 (F := Ideal)) W (Proc.devRef .tc main_v30) = W (Proc.devRef .tc main_v30) := by host_keeps
theorem keep1_arg0 : StableHlo.after (hostOps1 (F := Ideal)) W (Proc.devRef .tc main_arg0) = W (Proc.devRef .tc main_arg0) := by host_keeps
theorem keep1_arg2 : StableHlo.after (hostOps1 (F := Ideal)) W (Proc.devRef .tc main_arg2) = W (Proc.devRef .tc main_arg2) := by host_keeps
theorem keep1_arg3 : StableHlo.after (hostOps1 (F := Ideal)) W (Proc.devRef .tc main_arg3) = W (Proc.devRef .tc main_arg3) := by host_keeps
theorem keep1_arg7 : StableHlo.after (hostOps1 (F := Ideal)) W (Proc.devRef .tc main_arg7) = W (Proc.devRef .tc main_arg7) := by host_keeps
theorem keep1_arg8 : StableHlo.after (hostOps1 (F := Ideal)) W (Proc.devRef .tc main_arg8) = W (Proc.devRef .tc main_arg8) := by host_keeps
theorem keep1_arg9 : StableHlo.after (hostOps1 (F := Ideal)) W (Proc.devRef .tc main_arg9) = W (Proc.devRef .tc main_arg9) := by host_keeps
theorem keep1_arg10 : StableHlo.after (hostOps1 (F := Ideal)) W (Proc.devRef .tc main_arg10) = W (Proc.devRef .tc main_arg10) := by host_keeps
theorem keep1_arg11 : StableHlo.after (hostOps1 (F := Ideal)) W (Proc.devRef .tc main_arg11) = W (Proc.devRef .tc main_arg11) := by host_keeps
theorem keep1_arg12 : StableHlo.after (hostOps1 (F := Ideal)) W (Proc.devRef .tc main_arg12) = W (Proc.devRef .tc main_arg12) := by host_keeps
theorem keep1_arg13 : StableHlo.after (hostOps1 (F := Ideal)) W (Proc.devRef .tc main_arg13) = W (Proc.devRef .tc main_arg13) := by host_keeps
theorem keep1_arg14 : StableHlo.after (hostOps1 (F := Ideal)) W (Proc.devRef .tc main_arg14) = W (Proc.devRef .tc main_arg14) := by host_keeps
theorem keep1_arg15 : StableHlo.after (hostOps1 (F := Ideal)) W (Proc.devRef .tc main_arg15) = W (Proc.devRef .tc main_arg15) := by host_keeps

/-! ### Stretch 2 writes none of these -/
theorem keep2_v6 : StableHlo.after (hostOps2 (F := Ideal)) W (Proc.devRef .tc main_v6) = W (Proc.devRef .tc main_v6) := by host_keeps
theorem keep2_v30 : StableHlo.after (hostOps2 (F := Ideal)) W (Proc.devRef .tc main_v30) = W (Proc.devRef .tc main_v30) := by host_keeps
theorem keep2_v13 : StableHlo.after (hostOps2 (F := Ideal)) W (Proc.devRef .tc main_v13) = W (Proc.devRef .tc main_v13) := by host_keeps
theorem keep2_v47 : StableHlo.after (hostOps2 (F := Ideal)) W (Proc.devRef .tc main_v47) = W (Proc.devRef .tc main_v47) := by host_keeps
theorem keep2_arg3 : StableHlo.after (hostOps2 (F := Ideal)) W (Proc.devRef .tc main_arg3) = W (Proc.devRef .tc main_arg3) := by host_keeps
theorem keep2_arg10 : StableHlo.after (hostOps2 (F := Ideal)) W (Proc.devRef .tc main_arg10) = W (Proc.devRef .tc main_arg10) := by host_keeps
theorem keep2_arg11 : StableHlo.after (hostOps2 (F := Ideal)) W (Proc.devRef .tc main_arg11) = W (Proc.devRef .tc main_arg11) := by host_keeps
theorem keep2_arg12 : StableHlo.after (hostOps2 (F := Ideal)) W (Proc.devRef .tc main_arg12) = W (Proc.devRef .tc main_arg12) := by host_keeps
theorem keep2_arg13 : StableHlo.after (hostOps2 (F := Ideal)) W (Proc.devRef .tc main_arg13) = W (Proc.devRef .tc main_arg13) := by host_keeps
theorem keep2_arg14 : StableHlo.after (hostOps2 (F := Ideal)) W (Proc.devRef .tc main_arg14) = W (Proc.devRef .tc main_arg14) := by host_keeps
theorem keep2_arg15 : StableHlo.after (hostOps2 (F := Ideal)) W (Proc.devRef .tc main_arg15) = W (Proc.devRef .tc main_arg15) := by host_keeps

/-! ### Stretch 3 writes none of these -/
theorem keep3_v13 : StableHlo.after (hostOps3 (F := Ideal)) W (Proc.devRef .tc main_v13) = W (Proc.devRef .tc main_v13) := by host_keeps
theorem keep3_v47 : StableHlo.after (hostOps3 (F := Ideal)) W (Proc.devRef .tc main_v47) = W (Proc.devRef .tc main_v47) := by host_keeps
theorem keep3_v64 : StableHlo.after (hostOps3 (F := Ideal)) W (Proc.devRef .tc main_v64) = W (Proc.devRef .tc main_v64) := by host_keeps
theorem keep3_arg13 : StableHlo.after (hostOps3 (F := Ideal)) W (Proc.devRef .tc main_arg13) = W (Proc.devRef .tc main_arg13) := by host_keeps
theorem keep3_arg14 : StableHlo.after (hostOps3 (F := Ideal)) W (Proc.devRef .tc main_arg14) = W (Proc.devRef .tc main_arg14) := by host_keeps
theorem keep3_arg15 : StableHlo.after (hostOps3 (F := Ideal)) W (Proc.devRef .tc main_arg15) = W (Proc.devRef .tc main_arg15) := by host_keeps

end Cert.KernelIdeal.HostTerms

end
-- ==== Proof.SageLayer.lean ====
/-
  One layer of neighbour averaging followed by two dense maps, entry by entry.

  For a destination row r with neighbour sum agg[r, ·] and in-degree deg[r], the layer's entry (r, c) is

      (Σ_k (agg[r, k] / max(deg[r], 1)) · Wl[k, c] + bl[c]) + Σ_k x[r, k] · Wr[k, c]:

  the mean of the neighbours' features through Wl, then the bias, then the row's own features through Wr, added
  in that order. `layerAt` states it for arrays of any number of rows, so one formula reads both a block of rows
  and the whole array; `hidden` is the whole first-layer array (the maximum with zero taken after the formula)
  and `output` the whole second-layer array (the formula itself). An entry depends on row r of agg, deg and x
  only (`layerAt_congr`): this is what lets a block of rows be computed from the same rows of the operands.
-/
import Idealize.ShloMosaic.PureOps.Ideal
import Idealize.ShloMosaic.Lib.ValueIdx

noncomputable section

namespace Cert.Sage

open Idealize.ShloMosaic Idealize.ShloMosaic.ValueIdx

/-- The float words of 1.0 and of 0.0, as the programs spell them. -/
abbrev one : EReal := Ideal.ofBits .f32 0x3F800000#32
abbrev zero : EReal := Ideal.ofBits .f32 0x00000000#32

/-- Entry (r, c) of one layer, over arrays of `n` rows. -/
def layerAt {n : Nat} (agg : FVec Ideal ⟨2, ![n, 128]⟩ .f32) (deg : Fin n → EReal) (x : FVec Ideal ⟨2, ![n, 128]⟩ .f32)
    (Wl : FVec Ideal ⟨2, ![128, 128]⟩ .f32) (bl : FVec Ideal ⟨1, ![128]⟩ .f32) (Wr : FVec Ideal ⟨2, ![128, 128]⟩ .f32)
    (r : Fin n) (c : Fin 128) : EReal :=
  (∑ k : Fin 128, Ideal.div (agg (ix2 r k)) (max (deg r) one) * Wl (ix2 k c) + bl (ix1 c))
    + ∑ k : Fin 128, x (ix2 r k) * Wr (ix2 k c)

/-- An entry of the layer reads row r of the neighbour sums, of the degrees and of the row features, and nothing
    else of them: two settings that agree on that row give the same entry. -/
theorem layerAt_congr {n n' : Nat} (agg : FVec Ideal ⟨2, ![n, 128]⟩ .f32) (deg : Fin n → EReal) (x : FVec Ideal ⟨2, ![n, 128]⟩ .f32)
    (agg' : FVec Ideal ⟨2, ![n', 128]⟩ .f32) (deg' : Fin n' → EReal) (x' : FVec Ideal ⟨2, ![n', 128]⟩ .f32)
    (Wl : FVec Ideal ⟨2, ![128, 128]⟩ .f32) (bl : FVec Ideal ⟨1, ![128]⟩ .f32) (Wr : FVec Ideal ⟨2, ![128, 128]⟩ .f32)
    (r : Fin n) (r' : Fin n') (c : Fin 128)
    (hagg : ∀ k : Fin 128, agg' (ix2 r' k) = agg (ix2 r k)) (hdeg : deg' r' = deg r)
    (hx : ∀ k : Fin 128, x' (ix2 r' k) = x (ix2 r k)) :
    layerAt agg' deg' x' Wl bl Wr r' c = layerAt agg deg x Wl bl Wr r c := by
  unfold layerAt
  simp only [hagg, hdeg, hx]

/-- The first layer's whole array: the formula, then the maximum with zero. -/
def hidden (agg : FVec Ideal ⟨2, ![50000, 128]⟩ .f32) (deg : Fin 50000 → EReal) (x : FVec Ideal ⟨2, ![50000, 128]⟩ .f32)
    (Wl : FVec Ideal ⟨2, ![128, 128]⟩ .f32) (bl : FVec Ideal ⟨1, ![128]⟩ .f32) (Wr : FVec Ideal ⟨2, ![128, 128]⟩ .f32) :
    FVec Ideal ⟨2, ![50000, 128]⟩ .f32 :=
  fun i => max (layerAt agg deg x Wl bl Wr (i 0) (i 1)) zero

/-- The second layer's whole array: the formula. -/
def output (agg : FVec Ideal ⟨2, ![50000, 128]⟩ .f32) (deg : Fin 50000 → EReal) (x : FVec Ideal ⟨2, ![50000, 128]⟩ .f32)
    (Wl : FVec Ideal ⟨2, ![128, 128]⟩ .f32) (bl : FVec Ideal ⟨1, ![128]⟩ .f32) (Wr : FVec Ideal ⟨2, ![128, 128]⟩ .f32) :
    FVec Ideal ⟨2, ![50000, 128]⟩ .f32 :=
  fun i => layerAt agg deg x Wl bl Wr (i 0) (i 1)

theorem hidden_apply (agg : FVec Ideal ⟨2, ![50000, 128]⟩ .f32) (deg : Fin 50000 → EReal) (x : FVec Ideal ⟨2, ![50000, 128]⟩ .f32)
    (Wl : FVec Ideal ⟨2, ![128, 128]⟩ .f32) (bl : FVec Ideal ⟨1, ![128]⟩ .f32) (Wr : FVec Ideal ⟨2, ![128, 128]⟩ .f32)
    (r : Fin 50000) (c : Fin 128) :
    hidden agg deg x Wl bl Wr (ix2 r c) = max (layerAt agg deg x Wl bl Wr r c) zero := rfl

theorem output_apply (agg : FVec Ideal ⟨2, ![50000, 128]⟩ .f32) (deg : Fin 50000 → EReal) (x : FVec Ideal ⟨2, ![50000, 128]⟩ .f32)
    (Wl : FVec Ideal ⟨2, ![128, 128]⟩ .f32) (bl : FVec Ideal ⟨1, ![128]⟩ .f32) (Wr : FVec Ideal ⟨2, ![128, 128]⟩ .f32)
    (r : Fin 50000) (c : Fin 128) :
    output agg deg x Wl bl Wr (ix2 r c) = layerAt agg deg x Wl bl Wr r c := rfl

end Cert.Sage

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyAt.lean ====
/-
  What one combine body stores, read at entry (p, q) of its block of 5000 rows.

  The body divides the block of neighbour sums by the block's degree column (each degree first raised to at
  least 1), multiplies by Wl on the matrix unit into a zero accumulator, adds the bias row, adds the block of
  row features times Wr, and — in the two first-layer kernels — takes the maximum with zero. The roundings to
  bf16 on the way into the matrix unit are the identity on the extended reals, a matrix product into the zero
  accumulator is the plain sum over the contracted axis, the degree column repeated across the 128 columns
  reads its row's one entry, and the bias row repeated down the rows reads its column's entry. So entry (p, q)
  of the stored block is `Cert.Sage.layerAt` of the loaded blocks at (p, q): with the maximum with zero for
  kernels 0 and 1 (`hidden_body0_at`, `hidden_body1_at`), without it for kernels 2 and 3.
-/
import proofs.«127813_j67362267070926_2_alg».proof.Proof.Gen.KernelIdeal.Skeleton
import proofs.«127813_j67362267070926_2_alg».proof.Proof.SageLayer
import proofs.«127813_j67362267070926_2_alg».proof.Proof.LibSplitContraction
import proofs.«127813_j67362267070926_2_alg».proof.Proof.LibColumnBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Sage

/-! ## The block's matrix product, entry by entry -/

theorem mm_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix into the zero accumulator: entry (p, q) is the sum over the
    128 contracted positions of the row's entries times the column's. -/
theorem mm_at {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) :=
  Cert.Lib.SplitContraction.matmul_zero_at dot_S5000x128_S128x128_S5000x128_1_0_0_1_n_n rfl rfl mm_lhs0 mm_lhs1 mm_rhs0 mm_rhs1 none lhs rhs p q

/-! ## The stored block at an entry -/

/-- Kernel 0 (first layer, item rows). -/
theorem hidden_body0_at (v0 : FVec Ideal S5000x1 .f32) (v4 v9 : FVec Ideal S5000x128 .f32) (v11 v13 : FVec Ideal S128x128 .f32)
    (v16 : FVec Ideal S128 .f32) (p : Fin 5000) (q : Fin 128) :
    k0_pay1 (F := Ideal) v0 v4 v9 v11 v13 v16 (ix2 p q)
      = max (layerAt v4 (fun r => v0 (ix2 r (0 : Fin 1))) v9 v11 v16 v13 p q) zero := by
  unfold k0_pay1 layerAt
  rw [maximumf_apply, addf_apply, addf_apply, mm_at, mm_at, broadcastTo_1b_ab_apply, shapeCast_a_1a_apply]
  simp only [truncf_apply, divf_apply, shapeCast_self, broadcastTo_a1_ab_apply, maximumf_apply, broadcast_apply]
  rfl

/-- Kernel 1 (first layer, user rows). -/
theorem hidden_body1_at (v0 : FVec Ideal S5000x1 .f32) (v4 v9 : FVec Ideal S5000x128 .f32) (v11 v13 : FVec Ideal S128x128 .f32)
    (v16 : FVec Ideal S128 .f32) (p : Fin 5000) (q : Fin 128) :
    k1_pay1 (F := Ideal) v0 v4 v9 v11 v13 v16 (ix2 p q)
      = max (layerAt v4 (fun r => v0 (ix2 r (0 : Fin 1))) v9 v11 v16 v13 p q) zero := by
  unfold k1_pay1 layerAt
  rw [maximumf_apply, addf_apply, addf_apply, mm_at, mm_at, broadcastTo_1b_ab_apply, shapeCast_a_1a_apply]
  simp only [truncf_apply, divf_apply, shapeCast_self, broadcastTo_a1_ab_apply, maximumf_apply, broadcast_apply]
  rfl

/-- Kernel 2 (second layer, item rows): the formula itself, no maximum. -/
theorem output_body2_at (v0 : FVec Ideal S5000x1 .f32) (v4 v9 : FVec Ideal S5000x128 .f32) (v12 v14 : FVec Ideal S128x128 .f32)
    (v17 : FVec Ideal S128 .f32) (p : Fin 5000) (q : Fin 128) :
    k2_pay1 (F := Ideal) v0 v4 v9 v12 v14 v17 (ix2 p q)
      = layerAt v4 (fun r => v0 (ix2 r (0 : Fin 1))) v9 v12 v17 v14 p q := by
  unfold k2_pay1 layerAt
  rw [addf_apply, addf_apply, mm_at, mm_at, broadcastTo_1b_ab_apply, shapeCast_a_1a_apply]
  simp only [truncf_apply, divf_apply, shapeCast_self, broadcastTo_a1_ab_apply, maximumf_apply, broadcast_apply]
  rfl

/-- Kernel 3 (second layer, user rows): the formula itself, no maximum. -/
theorem output_body3_at (v0 : FVec Ideal S5000x1 .f32) (v4 v9 : FVec Ideal S5000x128 .f32) (v12 v14 : FVec Ideal S128x128 .f32)
    (v17 : FVec Ideal S128 .f32) (p : Fin 5000) (q : Fin 128) :
    k3_pay1 (F := Ideal) v0 v4 v9 v12 v14 v17 (ix2 p q)
      = layerAt v4 (fun r => v0 (ix2 r (0 : Fin 1))) v9 v12 v17 v14 p q := by
  unfold k3_pay1 layerAt
  rw [addf_apply, addf_apply, mm_at, mm_at, broadcastTo_1b_ab_apply, shapeCast_a_1a_apply]
  simp only [truncf_apply, divf_apply, shapeCast_self, broadcastTo_a1_ab_apply, maximumf_apply, broadcast_apply]
  rfl

/-! ## One grid point against the whole arrays -/

/-- One point of kernel 0, over any blocks that are rows `base + p` of whole arrays: if the loaded blocks of
    neighbour sums, degrees and row features are those rows of arrays `A`, `D`, `X`, then entry `y` of the
    stored block is the first layer's whole array at the entry `i` that sits `base` rows further down. -/
theorem point_hidden0 (x0 : FVec Ideal S5000x128 .f32) (x1 : FVec Ideal S5000x1 .f32) (x2 : FVec Ideal S5000x128 .f32)
    (x3 : FVec Ideal S128x128 .f32) (x4 : FVec Ideal S128 .f32) (x5 : FVec Ideal S128x128 .f32)
    (A : FVec Ideal S50000x128 .f32) (D : FVec Ideal S50000x1 .f32) (X : FVec Ideal S50000x128 .f32) (base : Nat)
    (hA : ∀ (y : S5000x128.Idx) (i : S50000x128.Idx), (i 0).val = base + (y 0).val → (i 1).val = (y 1).val → x0 y = A i)
    (hD : ∀ (y : S5000x1.Idx) (i : S50000x1.Idx), (i 0).val = base + (y 0).val → (i 1).val = (y 1).val → x1 y = D i)
    (hX : ∀ (y : S5000x128.Idx) (i : S50000x128.Idx), (i 0).val = base + (y 0).val → (i 1).val = (y 1).val → x2 y = X i)
    (y : S5000x128.Idx) (i : S50000x128.Idx) (hi0 : (i 0).val = base + (y 0).val) (hi1 : (i 1).val = (y 1).val) :
    k0_pay1 (F := Ideal) x1 x0 x2 x3 x5 x4 y = hidden A (fun r => D (ix2 r (0 : Fin 1))) X x3 x4 x5 i := by
  obtain ⟨p, q, rfl⟩ : ∃ (p : Fin 5000) (q : Fin 128), y = ix2 p q := ⟨y 0, y 1, eq_ix2 y⟩
  obtain ⟨r, c, rfl⟩ : ∃ (r : Fin 50000) (c : Fin 128), i = ix2 r c := ⟨i 0, i 1, eq_ix2 i⟩
  have hr : r.val = base + p.val := hi0
  obtain rfl : c = q := Fin.ext hi1
  rw [hidden_body0_at, hidden_apply]
  refine congrArg (max · zero) ?_
  exact layerAt_congr A (fun r => D (ix2 r (0 : Fin 1))) X x0 (fun r => x1 (ix2 r (0 : Fin 1))) x2 x3 x4 x5 r p c
    (fun k => hA (ix2 p k) (ix2 r k) hr rfl) (hD (ix2 p (0 : Fin 1)) (ix2 r (0 : Fin 1)) hr rfl)
    (fun k => hX (ix2 p k) (ix2 r k) hr rfl)

/-- One point of kernel 1, over any blocks that are rows `base + p` of whole arrays: if the loaded blocks of
    neighbour sums, degrees and row features are those rows of arrays `A`, `D`, `X`, then entry `y` of the
    stored block is the first layer's whole array at the entry `i` that sits `base` rows further down. -/
theorem point_hidden1 (x0 : FVec Ideal S5000x128 .f32) (x1 : FVec Ideal S5000x1 .f32) (x2 : FVec Ideal S5000x128 .f32)
    (x3 : FVec Ideal S128x128 .f32) (x4 : FVec Ideal S128 .f32) (x5 : FVec Ideal S128x128 .f32)
    (A : FVec Ideal S50000x128 .f32) (D : FVec Ideal S50000x1 .f32) (X : FVec Ideal S50000x128 .f32) (base : Nat)
    (hA : ∀ (y : S5000x128.Idx) (i : S50000x128.Idx), (i 0).val = base + (y 0).val → (i 1).val = (y 1).val → x0 y = A i)
    (hD : ∀ (y : S5000x1.Idx) (i : S50000x1.Idx), (i 0).val = base + (y 0).val → (i 1).val = (y 1).val → x1 y = D i)
    (hX : ∀ (y : S5000x128.Idx) (i : S50000x128.Idx), (i 0).val = base + (y 0).val → (i 1).val = (y 1).val → x2 y = X i)
    (y : S5000x128.Idx) (i : S50000x128.Idx) (hi0 : (i 0).val = base + (y 0).val) (hi1 : (i 1).val = (y 1).val) :
    k1_pay1 (F := Ideal) x1 x0 x2 x3 x5 x4 y = hidden A (fun r => D (ix2 r (0 : Fin 1))) X x3 x4 x5 i := by
  obtain ⟨p, q, rfl⟩ : ∃ (p : Fin 5000) (q : Fin 128), y = ix2 p q := ⟨y 0, y 1, eq_ix2 y⟩
  obtain ⟨r, c, rfl⟩ : ∃ (r : Fin 50000) (c : Fin 128), i = ix2 r c := ⟨i 0, i 1, eq_ix2 i⟩
  have hr : r.val = base + p.val := hi0
  obtain rfl : c = q := Fin.ext hi1
  rw [hidden_body1_at, hidden_apply]
  refine congrArg (max · zero) ?_
  exact layerAt_congr A (fun r => D (ix2 r (0 : Fin 1))) X x0 (fun r => x1 (ix2 r (0 : Fin 1))) x2 x3 x4 x5 r p c
    (fun k => hA (ix2 p k) (ix2 r k) hr rfl) (hD (ix2 p (0 : Fin 1)) (ix2 r (0 : Fin 1)) hr rfl)
    (fun k => hX (ix2 p k) (ix2 r k) hr rfl)

/-- One point of kernel 2, over any blocks that are rows `base + p` of whole arrays: if the loaded blocks of
    neighbour sums, degrees and row features are those rows of arrays `A`, `D`, `X`, then entry `y` of the
    stored block is the second layer's whole array at the entry `i` that sits `base` rows further down. -/
theorem point_output2 (x0 : FVec Ideal S5000x128 .f32) (x1 : FVec Ideal S5000x1 .f32) (x2 : FVec Ideal S5000x128 .f32)
    (x3 : FVec Ideal S128x128 .f32) (x4 : FVec Ideal S128 .f32) (x5 : FVec Ideal S128x128 .f32)
    (A : FVec Ideal S50000x128 .f32) (D : FVec Ideal S50000x1 .f32) (X : FVec Ideal S50000x128 .f32) (base : Nat)
    (hA : ∀ (y : S5000x128.Idx) (i : S50000x128.Idx), (i 0).val = base + (y 0).val → (i 1).val = (y 1).val → x0 y = A i)
    (hD : ∀ (y : S5000x1.Idx) (i : S50000x1.Idx), (i 0).val = base + (y 0).val → (i 1).val = (y 1).val → x1 y = D i)
    (hX : ∀ (y : S5000x128.Idx) (i : S50000x128.Idx), (i 0).val = base + (y 0).val → (i 1).val = (y 1).val → x2 y = X i)
    (y : S5000x128.Idx) (i : S50000x128.Idx) (hi0 : (i 0).val = base + (y 0).val) (hi1 : (i 1).val = (y 1).val) :
    k2_pay1 (F := Ideal) x1 x0 x2 x3 x5 x4 y = output A (fun r => D (ix2 r (0 : Fin 1))) X x3 x4 x5 i := by
  obtain ⟨p, q, rfl⟩ : ∃ (p : Fin 5000) (q : Fin 128), y = ix2 p q := ⟨y 0, y 1, eq_ix2 y⟩
  obtain ⟨r, c, rfl⟩ : ∃ (r : Fin 50000) (c : Fin 128), i = ix2 r c := ⟨i 0, i 1, eq_ix2 i⟩
  have hr : r.val = base + p.val := hi0
  obtain rfl : c = q := Fin.ext hi1
  rw [output_body2_at, output_apply]
  exact layerAt_congr A (fun r => D (ix2 r (0 : Fin 1))) X x0 (fun r => x1 (ix2 r (0 : Fin 1))) x2 x3 x4 x5 r p c
    (fun k => hA (ix2 p k) (ix2 r k) hr rfl) (hD (ix2 p (0 : Fin 1)) (ix2 r (0 : Fin 1)) hr rfl)
    (fun k => hX (ix2 p k) (ix2 r k) hr rfl)

/-- One point of kernel 3, over any blocks that are rows `base + p` of whole arrays: if the loaded blocks of
    neighbour sums, degrees and row features are those rows of arrays `A`, `D`, `X`, then entry `y` of the
    stored block is the second layer's whole array at the entry `i` that sits `base` rows further down. -/
theorem point_output3 (x0 : FVec Ideal S5000x128 .f32) (x1 : FVec Ideal S5000x1 .f32) (x2 : FVec Ideal S5000x128 .f32)
    (x3 : FVec Ideal S128x128 .f32) (x4 : FVec Ideal S128 .f32) (x5 : FVec Ideal S128x128 .f32)
    (A : FVec Ideal S50000x128 .f32) (D : FVec Ideal S50000x1 .f32) (X : FVec Ideal S50000x128 .f32) (base : Nat)
    (hA : ∀ (y : S5000x128.Idx) (i : S50000x128.Idx), (i 0).val = base + (y 0).val → (i 1).val = (y 1).val → x0 y = A i)
    (hD : ∀ (y : S5000x1.Idx) (i : S50000x1.Idx), (i 0).val = base + (y 0).val → (i 1).val = (y 1).val → x1 y = D i)
    (hX : ∀ (y : S5000x128.Idx) (i : S50000x128.Idx), (i 0).val = base + (y 0).val → (i 1).val = (y 1).val → x2 y = X i)
    (y : S5000x128.Idx) (i : S50000x128.Idx) (hi0 : (i 0).val = base + (y 0).val) (hi1 : (i 1).val = (y 1).val) :
    k3_pay1 (F := Ideal) x1 x0 x2 x3 x5 x4 y = output A (fun r => D (ix2 r (0 : Fin 1))) X x3 x4 x5 i := by
  obtain ⟨p, q, rfl⟩ : ∃ (p : Fin 5000) (q : Fin 128), y = ix2 p q := ⟨y 0, y 1, eq_ix2 y⟩
  obtain ⟨r, c, rfl⟩ : ∃ (r : Fin 50000) (c : Fin 128), i = ix2 r c := ⟨i 0, i 1, eq_ix2 i⟩
  have hr : r.val = base + p.val := hi0
  obtain rfl : c = q := Fin.ext hi1
  rw [output_body3_at, output_apply]
  exact layerAt_congr A (fun r => D (ix2 r (0 : Fin 1))) X x0 (fun r => x1 (ix2 r (0 : Fin 1))) x2 x3 x4 x5 r p c
    (fun k => hA (ix2 p k) (ix2 r k) hr rfl) (hD (ix2 p (0 : Fin 1)) (ix2 r (0 : Fin 1)) hr rfl)
    (fun k => hX (ix2 p k) (ix2 r k) hr rfl)

end Cert.KernelIdeal.Body

end
-- ==== Proof.Region0.lean ====
/-
  Kernel 0 (first layer, item rows): the array it leaves is one whole-array function of what it finds.

  The grid has ten points; point t stages rows 5000·t … 5000·t + 4999 of the neighbour sums, of the degree
  column and of the row features, and the two weight matrices and the bias whole, and writes back rows
  5000·t … 5000·t + 4999 of the result. An entry of the layer depends only on its own row of the three
  row-indexed operands, so what point t writes back is exactly rows 5000·t … of the layer's whole array
  computed from the arrays as the kernel finds them (`flushed_eq`). Row r lies in the block of point r / 5000,
  so the ten blocks cover the result (`cover`), and the result array ends holding the layer's whole array
  (`final`). Everything is stated at a parameter `V`, the buffer contents the kernel is entered with.
-/
import proofs.«127813_j67362267070926_2_alg».proof.Proof.Gen.KernelIdeal.Frame
import proofs.«127813_j67362267070926_2_alg».proof.Proof.BodyAt
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the three row-indexed inputs and the output move with the
    point along the rows, the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged block as rows of its array -/

/-- The block of neighbour sums at point t is rows 5000·t … of the array. -/
theorem agg_block (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_v29 : S50000x128.Idx → Elt Ideal .f32) i := by
  obtain ⟨e0, e1, -⟩ := idx_facts t
  unfold iblk0
  rw [View.read_apply]
  show V c main_v29 _ = V c main_v29 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The block of the degree column at point t is rows 5000·t … of the column. -/
theorem deg_block (c : Dev nD) (t : Fin cfg0.N) (y : S5000x1.Idx) (i : S50000x1.Idx)
    (h0 : (i 0).val = 5000 * t.val + (y 0).val) (h1 : (i 1).val = (y 1).val) :
    (iblk0 V c 1 t : Vec Ideal S5000x1 .f32) y = (V c main_v6 : S50000x1.Idx → Elt Ideal .f32) i := by
  obtain ⟨-, -, e0, e1, -⟩ := idx_facts t
  unfold iblk0
  rw [View.read_apply]
  show V c main_v6 _ = V c main_v6 _
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- The block of row features at point t is rows 5000·t … of the array. -/
theorem row_block (c : Dev nD) (t : Fin cfg0.N) (y : S5000x128.Idx) (i : S50000x128.Idx)
    (h0 : (i 0).val = 5000 * t.val + (y 0).val) (h1 : (i 1).val = (y 1).val) :
    (iblk0 V c 2 t : Vec Ideal S5000x128 .f32) y = (V c main_arg1 : S50000x128.Idx → Elt Ideal .f32) i := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 5000 + 1 * (y 0).val = (i 0).val; rw [e0, h0]; omega
  | ⟨1, _⟩ => show win0_2.index t 1 * 128 + 1 * (y 1).val = (i 1).val; rw [e1, h1]; omega

/-- The neighbour weights are staged whole at every point. -/
theorem wl_block (c : Dev nD) (t : Fin cfg0.N) :
    (iblk0 V c 3 t : Vec Ideal S128x128 .f32) = (V c main_arg4 : S128x128.Idx → Elt Ideal .f32) := by
  obtain ⟨-, -, -, -, -, -, e0, e1, -⟩ := idx_facts t
  funext y
  unfold iblk0
  rw [View.read_apply]
  show V c main_arg4 _ = V c main_arg4 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The bias is staged whole at every point. -/
theorem bias_block (c : Dev nD) (t : Fin cfg0.N) :
    (iblk0 V c 4 t : Vec Ideal S128 .f32) = (V c main_arg5 : S128.Idx → Elt Ideal .f32) := by
  obtain ⟨-, -, -, -, -, -, -, -, e0, -⟩ := idx_facts t
  funext y
  unfold iblk0
  rw [View.read_apply]
  show V c main_arg5 _ = V c main_arg5 _
  congr 1
  funext a
  apply Fin.ext
  match a with
  | ⟨0, _⟩ => show win0_4.index t 0 * 128 + 1 * (y 0).val = (y 0).val; rw [e0]; omega

/-- The root weights are staged whole at every point. -/
theorem wr_block (c : Dev nD) (t : Fin cfg0.N) :
    (iblk0 V c 5 t : Vec Ideal S128x128 .f32) = (V c main_arg6 : S128x128.Idx → Elt Ideal .f32) := by
  obtain ⟨-, -, -, -, -, -, -, -, -, e0, e1, -⟩ := idx_facts t
  funext y
  unfold iblk0
  rw [View.read_apply]
  show V c main_arg6 _ = V c main_arg6 _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-! ## What the kernel leaves -/

/-- The layer's whole array of the arrays as the kernel finds them. -/
abbrev result (c : Dev nD) : FVec Ideal S50000x128 .f32 :=
  hidden (V c main_v29) (fun r => (V c main_v6 : S50000x1.Idx → Elt Ideal .f32) (ix2 r (0 : Fin 1))) (V c main_arg1)
    (V c main_arg4) (V c main_arg5) (V c main_arg6)

/-- WHAT POINT t WRITES BACK is rows 5000·t … of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  rw [wl_block V c t, bias_block V c t, wr_block V c t]
  obtain ⟨-, -, -, -, -, -, -, -, -, -, -, e0, e1⟩ := idx_facts t
  funext j
  refine Body.point_hidden0 (iblk0 V c 0 t) (iblk0 V c 1 t) (iblk0 V c 2 t) (V c main_arg4) (V c main_arg5) (V c main_arg6)
    (V c main_v29) (V c main_v6) (V c main_arg1) (5000 * t.val)
    (fun y i h0 h1 => agg_block V c t y i h0 h1) (fun y i h0 h1 => deg_block V c t y i h0 h1)
    (fun y i h0 h1 => row_block V c t y i h0 h1) j (((cfg0.win 6).blk t).view.emb j) ?_ ?_
  · show win0_6.index t 0 * 5000 + 1 * (j 0).val = 5000 * t.val + (j 0).val; rw [e0]; omega
  · show win0_6.index t 1 * 128 + 1 * (j 1).val = (j 1).val; rw [e1]; omega

/-- An entry of the result array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30).slice (win0_6.rect t)).set ↔ _
  rw [View.set_slice_whole, Rect.mem_set_unit]
  exact Iff.rfl

/-- Row r of the result lies in the block of point r / 5000: the ten blocks cover the array. -/
theorem cover (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  have ht : (i 0).val / 5000 < cfg0.N := by rw [hN]; omega
  refine ⟨⟨(i 0).val / 5000, ht⟩, flush0_6 _, ?_⟩
  obtain ⟨-, -, -, -, -, -, -, -, -, -, -, e0, e1⟩ := idx_facts ⟨(i 0).val / 5000, ht⟩
  rw [mem_blk]
  intro a
  match a with
  | ⟨0, _⟩ =>
    show win0_6.index ⟨(i 0).val / 5000, ht⟩ 0 * 5000 ≤ (i 0).val ∧ (i 0).val < win0_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ 1 * 128 ≤ (i 1).val ∧ (i 1).val < win0_6.index ⟨(i 0).val / 5000, ht⟩ 1 * 128 + 128
    rw [e1]
    omega

/-- THE RESULT ARRAY after the kernel is the layer's whole array of the arrays it found. -/
theorem final (c : Dev nD) : (dat0 V c).arrAt 6 cfg0.N = result V c :=
  (dat0 V c).arrAt_eq_of_cover 6 (result V c) (fun t _ => flushed_eq V c t) cover

end Cert.KernelIdeal.Region0

end
-- ==== Proof.Region1.lean ====
/-
  Kernel 1 (first layer, user rows): the array it leaves is one whole-array function of what it finds.

  The grid has ten points; point t stages rows 5000·t … 5000·t + 4999 of the neighbour sums, of the degree
  column and of the row features, and the two weight matrices and the bias whole, and writes back rows
  5000·t … 5000·t + 4999 of the result. An entry of the layer depends only on its own row of the three
  row-indexed operands, so what point t writes back is exactly rows 5000·t … of the layer's whole array
  computed from the arrays as the kernel finds them (`flushed_eq`). Row r lies in the block of point r / 5000,
  so the ten blocks cover the result (`cover`), and the result array ends holding the layer's whole array
  (`final`). Everything is stated at a parameter `V`, the buffer contents the kernel is entered with.
-/
import proofs.«127813_j67362267070926_2_alg».proof.Proof.Gen.KernelIdeal.Frame
import proofs.«127813_j67362267070926_2_alg».proof.Proof.BodyAt
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the three row-indexed inputs and the output move with the
    point along the rows, the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each staged block as rows of its array -/

/-- The block of neighbour sums at point t is rows 5000·t … of the array. -/
theorem agg_block (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v46 : S50000x128.Idx → Elt Ideal .f32) i := by
  obtain ⟨e0, e1, -⟩ := idx_facts t
  unfold iblk1
  rw [View.read_apply]
  show V c main_v46 _ = V c main_v46 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The block of the degree column at point t is rows 5000·t … of the column. -/
theorem deg_block (c : Dev nD) (t : Fin cfg1.N) (y : S5000x1.Idx) (i : S50000x1.Idx)
    (h0 : (i 0).val = 5000 * t.val + (y 0).val) (h1 : (i 1).val = (y 1).val) :
    (iblk1 V c 1 t : Vec Ideal S5000x1 .f32) y = (V c main_v13 : S50000x1.Idx → Elt Ideal .f32) i := by
  obtain ⟨-, -, e0, e1, -⟩ := idx_facts t
  unfold iblk1
  rw [View.read_apply]
  show V c main_v13 _ = V c main_v13 _
  congr 1
  funext a
  apply Fin.ext
  match a with
  | ⟨0, _⟩ => show win1_1.index t 0 * 5000 + 1 * (y 0).val = (i 0).val; rw [e0, h0]; omega
  | ⟨1, _⟩ => show win1_1.index t 1 * 1 + 1 * (y 1).val = (i 1).val; rw [e1, h1]; omega

/-- The block of row features at point t is rows 5000·t … of the array. -/
theorem row_block (c : Dev nD) (t : Fin cfg1.N) (y : S5000x128.Idx) (i : S50000x128.Idx)
    (h0 : (i 0).val = 5000 * t.val + (y 0).val) (h1 : (i 1).val = (y 1).val) :
    (iblk1 V c 2 t : Vec Ideal S5000x128 .f32) y = (V c main_arg0 : S50000x128.Idx → Elt Ideal .f32) i := by
  obtain ⟨-, -, -, -, e0, e1, -⟩ := idx_facts t
  unfold iblk1
  rw [View.read_apply]
  show V c main_arg0 _ = V c main_arg0 _
  congr 1
  funext a
  apply Fin.ext
  match a with
  | ⟨0, _⟩ => show win1_2.index t 0 * 5000 + 1 * (y 0).val = (i 0).val; rw [e0, h0]; omega
  | ⟨1, _⟩ => show win1_2.index t 1 * 128 + 1 * (y 1).val = (i 1).val; rw [e1, h1]; omega

/-- The neighbour weights are staged whole at every point. -/
theorem wl_block (c : Dev nD) (t : Fin cfg1.N) :
    (iblk1 V c 3 t : Vec Ideal S128x128 .f32) = (V c main_arg7 : S128x128.Idx → Elt Ideal .f32) := by
  obtain ⟨-, -, -, -, -, -, e0, e1, -⟩ := idx_facts t
  funext y
  unfold iblk1
  rw [View.read_apply]
  show V c main_arg7 _ = V c main_arg7 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The bias is staged whole at every point. -/
theorem bias_block (c : Dev nD) (t : Fin cfg1.N) :
    (iblk1 V c 4 t : Vec Ideal S128 .f32) = (V c main_arg8 : S128.Idx → Elt Ideal .f32) := by
  obtain ⟨-, -, -, -, -, -, -, -, e0, -⟩ := idx_facts t
  funext y
  unfold iblk1
  rw [View.read_apply]
  show V c main_arg8 _ = V c main_arg8 _
  congr 1
  funext a
  apply Fin.ext
  match a with
  | ⟨0, _⟩ => show win1_4.index t 0 * 128 + 1 * (y 0).val = (y 0).val; rw [e0]; omega

/-- The root weights are staged whole at every point. -/
theorem wr_block (c : Dev nD) (t : Fin cfg1.N) :
    (iblk1 V c 5 t : Vec Ideal S128x128 .f32) = (V c main_arg9 : S128x128.Idx → Elt Ideal .f32) := by
  obtain ⟨-, -, -, -, -, -, -, -, -, e0, e1, -⟩ := idx_facts t
  funext y
  unfold iblk1
  rw [View.read_apply]
  show V c main_arg9 _ = V c main_arg9 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-! ## What the kernel leaves -/

/-- The layer's whole array of the arrays as the kernel finds them. -/
abbrev result (c : Dev nD) : FVec Ideal S50000x128 .f32 :=
  hidden (V c main_v46) (fun r => (V c main_v13 : S50000x1.Idx → Elt Ideal .f32) (ix2 r (0 : Fin 1))) (V c main_arg0)
    (V c main_arg7) (V c main_arg8) (V c main_arg9)

/-- WHAT POINT t WRITES BACK is rows 5000·t … of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  rw [wl_block V c t, bias_block V c t, wr_block V c t]
  obtain ⟨-, -, -, -, -, -, -, -, -, -, -, e0, e1⟩ := idx_facts t
  funext j
  refine Body.point_hidden1 (iblk1 V c 0 t) (iblk1 V c 1 t) (iblk1 V c 2 t) (V c main_arg7) (V c main_arg8) (V c main_arg9)
    (V c main_v46) (V c main_v13) (V c main_arg0) (5000 * t.val)
    (fun y i h0 h1 => agg_block V c t y i h0 h1) (fun y i h0 h1 => deg_block V c t y i h0 h1)
    (fun y i h0 h1 => row_block V c t y i h0 h1) j (((cfg1.win 6).blk t).view.emb j) ?_ ?_
  · show win1_6.index t 0 * 5000 + 1 * (j 0).val = 5000 * t.val + (j 0).val; rw [e0]; omega
  · show win1_6.index t 1 * 128 + 1 * (j 1).val = (j 1).val; rw [e1]; omega

/-- An entry of the result array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v47).slice (win1_6.rect t)).set ↔ _
  rw [View.set_slice_whole, Rect.mem_set_unit]
  exact Iff.rfl

/-- Row r of the result lies in the block of point r / 5000: the ten blocks cover the array. -/
theorem cover (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  have ht : (i 0).val / 5000 < cfg1.N := by rw [hN]; omega
  refine ⟨⟨(i 0).val / 5000, ht⟩, flush1_6 _, ?_⟩
  obtain ⟨-, -, -, -, -, -, -, -, -, -, -, e0, e1⟩ := idx_facts ⟨(i 0).val / 5000, ht⟩
  rw [mem_blk]
  intro a
  match a with
  | ⟨0, _⟩ =>
    show win1_6.index ⟨(i 0).val / 5000, ht⟩ 0 * 5000 ≤ (i 0).val ∧ (i 0).val < win1_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ 1 * 128 ≤ (i 1).val ∧ (i 1).val < win1_6.index ⟨(i 0).val / 5000, ht⟩ 1 * 128 + 128
    rw [e1]
    omega

/-- THE RESULT ARRAY after the kernel is the layer's whole array of the arrays it found. -/
theorem final (c : Dev nD) : (dat1 V c).arrAt 6 cfg1.N = result V c :=
  (dat1 V c).arrAt_eq_of_cover 6 (result V c) (fun t _ => flushed_eq V c t) cover

end Cert.KernelIdeal.Region1

end
-- ==== Proof.Region2.lean ====
/-
  Kernel 2 (second layer, item rows): the array it leaves is one whole-array function of what it finds.

  The grid has ten points; point t stages rows 5000·t … 5000·t + 4999 of the neighbour sums, of the degree
  column and of the row features, and the two weight matrices and the bias whole, and writes back rows
  5000·t … 5000·t + 4999 of the result. An entry of the layer depends only on its own row of the three
  row-indexed operands, so what point t writes back is exactly rows 5000·t … of the layer's whole array
  computed from the arrays as the kernel finds them (`flushed_eq`). Row r lies in the block of point r / 5000,
  so the ten blocks cover the result (`cover`), and the result array ends holding the layer's whole array
  (`final`). Everything is stated at a parameter `V`, the buffer contents the kernel is entered with.
-/
import proofs.«127813_j67362267070926_2_alg».proof.Proof.Gen.KernelIdeal.Frame
import proofs.«127813_j67362267070926_2_alg».proof.Proof.BodyAt
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the three row-indexed inputs and the output move with the
    point along the rows, the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each staged block as rows of its array -/

/-- The block of neighbour sums at point t is rows 5000·t … of the array. -/
theorem agg_block (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v63 : S50000x128.Idx → Elt Ideal .f32) i := by
  obtain ⟨e0, e1, -⟩ := idx_facts t
  unfold iblk2
  rw [View.read_apply]
  show V c main_v63 _ = V c main_v63 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The block of the degree column at point t is rows 5000·t … of the column. -/
theorem deg_block (c : Dev nD) (t : Fin cfg2.N) (y : S5000x1.Idx) (i : S50000x1.Idx)
    (h0 : (i 0).val = 5000 * t.val + (y 0).val) (h1 : (i 1).val = (y 1).val) :
    (iblk2 V c 1 t : Vec Ideal S5000x1 .f32) y = (V c main_v6 : S50000x1.Idx → Elt Ideal .f32) i := by
  obtain ⟨-, -, e0, e1, -⟩ := idx_facts t
  unfold iblk2
  rw [View.read_apply]
  show V c main_v6 _ = V c main_v6 _
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-- The block of row features at point t is rows 5000·t … of the array. -/
theorem row_block (c : Dev nD) (t : Fin cfg2.N) (y : S5000x128.Idx) (i : S50000x128.Idx)
    (h0 : (i 0).val = 5000 * t.val + (y 0).val) (h1 : (i 1).val = (y 1).val) :
    (iblk2 V c 2 t : Vec Ideal S5000x128 .f32) y = (V c main_v30 : S50000x128.Idx → Elt Ideal .f32) i := by
  obtain ⟨-, -, -, -, e0, e1, -⟩ := idx_facts t
  unfold iblk2
  rw [View.read_apply]
  show V c main_v30 _ = V c main_v30 _
  congr 1
  funext a
  apply Fin.ext
  match a with
  | ⟨0, _⟩ => show win2_2.index t 0 * 5000 + 1 * (y 0).val = (i 0).val; rw [e0, h0]; omega
  | ⟨1, _⟩ => show win2_2.index t 1 * 128 + 1 * (y 1).val = (i 1).val; rw [e1, h1]; omega

/-- The neighbour weights are staged whole at every point. -/
theorem wl_block (c : Dev nD) (t : Fin cfg2.N) :
    (iblk2 V c 3 t : Vec Ideal S128x128 .f32) = (V c main_arg10 : S128x128.Idx → Elt Ideal .f32) := by
  obtain ⟨-, -, -, -, -, -, e0, e1, -⟩ := idx_facts t
  funext y
  unfold iblk2
  rw [View.read_apply]
  show V c main_arg10 _ = V c main_arg10 _
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

/-- The bias is staged whole at every point. -/
theorem bias_block (c : Dev nD) (t : Fin cfg2.N) :
    (iblk2 V c 4 t : Vec Ideal S128 .f32) = (V c main_arg11 : S128.Idx → Elt Ideal .f32) := by
  obtain ⟨-, -, -, -, -, -, -, -, e0, -⟩ := idx_facts t
  funext y
  unfold iblk2
  rw [View.read_apply]
  show V c main_arg11 _ = V c main_arg11 _
  congr 1
  funext a
  apply Fin.ext
  match a with
  | ⟨0, _⟩ => show win2_4.index t 0 * 128 + 1 * (y 0).val = (y 0).val; rw [e0]; omega

/-- The root weights are staged whole at every point. -/
theorem wr_block (c : Dev nD) (t : Fin cfg2.N) :
    (iblk2 V c 5 t : Vec Ideal S128x128 .f32) = (V c main_arg12 : S128x128.Idx → Elt Ideal .f32) := by
  obtain ⟨-, -, -, -, -, -, -, -, -, e0, e1, -⟩ := idx_facts t
  funext y
  unfold iblk2
  rw [View.read_apply]
  show V c main_arg12 _ = V c main_arg12 _
  congr 1
  funext a
  apply Fin.ext
  match a with
  | ⟨0, _⟩ => show win2_5.index t 0 * 128 + 1 * (y 0).val = (y 0).val; rw [e0]; omega
  | ⟨1, _⟩ => show win2_5.index t 1 * 128 + 1 * (y 1).val = (y 1).val; rw [e1]; omega

/-! ## What the kernel leaves -/

/-- The layer's whole array of the arrays as the kernel finds them. -/
abbrev result (c : Dev nD) : FVec Ideal S50000x128 .f32 :=
  output (V c main_v63) (fun r => (V c main_v6 : S50000x1.Idx → Elt Ideal .f32) (ix2 r (0 : Fin 1))) (V c main_v30)
    (V c main_arg10) (V c main_arg11) (V c main_arg12)

/-- WHAT POINT t WRITES BACK is rows 5000·t … of `result`. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2,
    View.ld_unit_zero (S := S128x128) hz2, View.ld_unit_zero (S := S128) hz1]
  rw [wl_block V c t, bias_block V c t, wr_block V c t]
  obtain ⟨-, -, -, -, -, -, -, -, -, -, -, e0, e1⟩ := idx_facts t
  funext j
  refine Body.point_output2 (iblk2 V c 0 t) (iblk2 V c 1 t) (iblk2 V c 2 t) (V c main_arg10) (V c main_arg11) (V c main_arg12)
    (V c main_v63) (V c main_v6) (V c main_v30) (5000 * t.val)
    (fun y i h0 h1 => agg_block V c t y i h0 h1) (fun y i h0 h1 => deg_block V c t y i h0 h1)
    (fun y i h0 h1 => row_block V c t y i h0 h1) j (((cfg2.win 6).blk t).view.emb j) ?_ ?_
  · show win2_6.index t 0 * 5000 + 1 * (j 0).val = 5000 * t.val + (j 0).val; rw [e0]; omega
  · show win2_6.index t 1 * 128 + 1 * (j 1).val = (j 1).val; rw [e1]; omega

/-- An entry of the result array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v64).slice (win2_6.rect t)).set ↔ _
  rw [View.set_slice_whole, Rect.mem_set_unit]
  exact Iff.rfl

/-- Row r of the result lies in the block of point r / 5000: the ten blocks cover the array. -/
theorem cover (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  have ht : (i 0).val / 5000 < cfg2.N := by rw [hN]; omega
  refine ⟨⟨(i 0).val / 5000, ht⟩, flush2_6 _, ?_⟩
  obtain ⟨-, -, -, -, -, -, -, -, -, -, -, e0, e1⟩ := idx_facts ⟨(i 0).val / 5000, ht⟩
  rw [mem_blk]
  intro a
  match a with
  | ⟨0, _⟩ =>
    show win2_6.index ⟨(i 0).val / 5000, ht⟩ 0 * 5000 ≤ (i 0).val ∧ (i 0).val < win2_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ 1 * 128 ≤ (i 1).val ∧ (i 1).val < win2_6.index ⟨(i 0).val / 5000, ht⟩ 1 * 128 + 128
    rw [e1]
    omega

/-- THE RESULT ARRAY after the kernel is the layer's whole array of the arrays it found. -/
theorem final (c : Dev nD) : (dat2 V c).arrAt 6 cfg2.N = result V c :=
  (dat2 V c).arrAt_eq_of_cover 6 (result V c) (fun t _ => flushed_eq V c t) cover

end Cert.KernelIdeal.Region2

end
-- ==== Proof.Region3.lean ====
/-
  Kernel 3 (second layer, user rows): the array it leaves is one whole-array function of what it finds.

  The grid has ten points; point t stages rows 5000·t … 5000·t + 4999 of the neighbour sums, of the degree
  column and of the row features, and the two weight matrices and the bias whole, and writes back rows
  5000·t … 5000·t + 4999 of the result. An entry of the layer depends only on its own row of the three
  row-indexed operands, so what point t writes back is exactly rows 5000·t … of the layer's whole array
  computed from the arrays as the kernel finds them (`flushed_eq`). Row r lies in the block of point r / 5000,
  so the ten blocks cover the result (`cover`), and the result array ends holding the layer's whole array
  (`final`). Everything is stated at a parameter `V`, the buffer contents the kernel is entered with.
-/
import proofs.«127813_j67362267070926_2_alg».proof.Proof.Gen.KernelIdeal.Frame
import proofs.«127813_j67362267070926_2_alg».proof.Proof.BodyAt
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the three row-indexed inputs and the output move with the
    point along the rows, the weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## Each staged block as rows of its array -/

/-- The block of neighbour sums at point t is rows 5000·t … of the array. -/
theorem agg_block (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c main_v80 : S50000x128.Idx → Elt Ideal .f32) i := by
  obtain ⟨e0, e1, -⟩ := idx_facts t
  unfold iblk3
  rw [View.read_apply]
  show V c main_v80 _ = V c main_v80 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The block of the degree column at point t is rows 5000·t … of the column. -/
theorem deg_block (c : Dev nD) (t : Fin cfg3.N) (y : S5000x1.Idx) (i : S50000x1.Idx)
    (h0 : (i 0).val = 5000 * t.val + (y 0).val) (h1 : (i 1).val = (y 1).val) :
    (iblk3 V c 1 t : Vec Ideal S5000x1 .f32) y = (V c main_v13 : S50000x1.Idx → Elt Ideal .f32) i := by
  obtain ⟨-, -, e0, e1, -⟩ := idx_facts t
  unfold iblk3
  rw [View.read_apply]
  show V c main_v13 _ = V c main_v13 _
  congr 1
  funext a
  apply Fin.ext
  match a with
  | ⟨0, _⟩ => show win3_1.index t 0 * 5000 + 1 * (y 0).val = (i 0).val; rw [e0, h0]; omega
  | ⟨1, _⟩ => show win3_1.index t 1 * 1 + 1 * (y 1).val = (i 1).val; rw [e1, h1]; omega

/-- The block of row features at point t is rows 5000·t … of the array. -/
theorem row_block (c : Dev nD) (t : Fin cfg3.N) (y : S5000x128.Idx) (i : S50000x128.Idx)
    (h0 : (i 0).val = 5000 * t.val + (y 0).val) (h1 : (i 1).val = (y 1).val) :
    (iblk3 V c 2 t : Vec Ideal S5000x128 .f32) y = (V c main_v47 : S50000x128.Idx → Elt Ideal .f32) i := by
  obtain ⟨-, -, -, -, e0, e1, -⟩ := idx_facts t
  unfold iblk3
  rw [View.read_apply]
  show V c main_v47 _ = V c main_v47 _
  congr 1
  funext a
  apply Fin.ext
  match a with
  | ⟨0, _⟩ => show win3_2.index t 0 * 5000 + 1 * (y 0).val = (i 0).val; rw [e0, h0]; omega
  | ⟨1, _⟩ => show win3_2.index t 1 * 128 + 1 * (y 1).val = (i 1).val; rw [e1, h1]; omega

/-- The neighbour weights are staged whole at every point. -/
theorem wl_block (c : Dev nD) (t : Fin cfg3.N) :
    (iblk3 V c 3 t : Vec Ideal S128x128 .f32) = (V c main_arg13 : S128x128.Idx → Elt Ideal .f32) := by
  obtain ⟨-, -, -, -, -, -, e0, e1, -⟩ := idx_facts t
  funext y
  unfold iblk3
  rw [View.read_apply]
  show V c main_arg13 _ = V c main_arg13 _
  congr 1
  funext a
  apply Fin.ext
  match a with
  | ⟨0, _⟩ => show win3_3.index t 0 * 128 + 1 * (y 0).val = (y 0).val; rw [e0]; omega
  | ⟨1, _⟩ => show win3_3.index t 1 * 128 + 1 * (y 1).val = (y 1).val; rw [e1]; omega

/-- The bias is staged whole at every point. -/
theorem bias_block (c : Dev nD) (t : Fin cfg3.N) :
    (iblk3 V c 4 t : Vec Ideal S128 .f32) = (V c main_arg14 : S128.Idx → Elt Ideal .f32) := by
  obtain ⟨-, -, -, -, -, -, -, -, e0, -⟩ := idx_facts t
  funext y
  unfold iblk3
  rw [View.read_apply]
  show V c main_arg14 _ = V c main_arg14 _
  congr 1
  funext a
  apply Fin.ext
  match a with
  | ⟨0, _⟩ => show win3_4.index t 0 * 128 + 1 * (y 0).val = (y 0).val; rw [e0]; omega

/-- The root weights are staged whole at every point. -/
theorem wr_block (c : Dev nD) (t : Fin cfg3.N) :
    (iblk3 V c 5 t : Vec Ideal S128x128 .f32) = (V c main_arg15 : S128x128.Idx → Elt Ideal .f32) := by
  obtain ⟨-, -, -, -, -, -, -, -, -, e0, e1, -⟩ := idx_facts t
  funext y
  unfold iblk3
  rw [View.read_apply]
  show V c main_arg15 _ = V c main_arg15 _
  congr 1
  funext a
  apply Fin.ext
  match a with
  | ⟨0, _⟩ => show win3_5.index t 0 * 128 + 1 * (y 0).val = (y 0).val; rw [e0]; omega
  | ⟨1, _⟩ => show win3_5.index t 1 * 128 + 1 * (y 1).val = (y 1).val; rw [e1]; omega

/-! ## What the kernel leaves -/

/-- The layer's whole array of the arrays as the kernel finds them. -/
abbrev result (c : Dev nD) : FVec Ideal S50000x128 .f32 :=
  output (V c main_v80) (fun r => (V c main_v13 : S50000x1.Idx → Elt Ideal .f32) (ix2 r (0 : Fin 1))) (V c main_v47)
    (V c main_arg13) (V c main_arg14) (V c main_arg15)

/-- WHAT POINT t WRITES BACK is rows 5000·t … of `result`. -/
theorem flushed_eq (c : Dev nD) (t : Fin cfg3.N) :
    (dat3 V c).flushed 6 t = ((cfg3.win 6).blk t).view.read (Elt Ideal) (result V c) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S5000x1) hz2,
    View.ld_unit_zero (S := S128x128) hz2, View.ld_unit_zero (S := S128) hz1]
  rw [wl_block V c t, bias_block V c t, wr_block V c t]
  obtain ⟨-, -, -, -, -, -, -, -, -, -, -, e0, e1⟩ := idx_facts t
  funext j
  refine Body.point_output3 (iblk3 V c 0 t) (iblk3 V c 1 t) (iblk3 V c 2 t) (V c main_arg13) (V c main_arg14) (V c main_arg15)
    (V c main_v80) (V c main_v13) (V c main_v47) (5000 * t.val)
    (fun y i h0 h1 => agg_block V c t y i h0 h1) (fun y i h0 h1 => deg_block V c t y i h0 h1)
    (fun y i h0 h1 => row_block V c t y i h0 h1) j (((cfg3.win 6).blk t).view.emb j) ?_ ?_
  · show win3_6.index t 0 * 5000 + 1 * (j 0).val = 5000 * t.val + (j 0).val; rw [e0]; omega
  · show win3_6.index t 1 * 128 + 1 * (j 1).val = (j 1).val; rw [e1]; omega

/-- An entry of the result array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v81).slice (win3_6.rect t)).set ↔ _
  rw [View.set_slice_whole, Rect.mem_set_unit]
  exact Iff.rfl

/-- Row r of the result lies in the block of point r / 5000: the ten blocks cover the array. -/
theorem cover (i : S50000x128.Idx) :
    ∃ t : Fin cfg3.N, (cfg3.win 6).flush t = true ∧ i ∈ ((cfg3.win 6).blk t).view.set := by
  have hN : cfg3.N = 10 := N_3
  have hi0 : (i 0).val < 50000 := (i 0).isLt
  have hi1 : (i 1).val < 128 := (i 1).isLt
  have ht : (i 0).val / 5000 < cfg3.N := by rw [hN]; omega
  refine ⟨⟨(i 0).val / 5000, ht⟩, flush3_6 _, ?_⟩
  obtain ⟨-, -, -, -, -, -, -, -, -, -, -, e0, e1⟩ := idx_facts ⟨(i 0).val / 5000, ht⟩
  rw [mem_blk]
  intro a
  match a with
  | ⟨0, _⟩ =>
    show win3_6.index ⟨(i 0).val / 5000, ht⟩ 0 * 5000 ≤ (i 0).val ∧ (i 0).val < win3_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_6.index ⟨(i 0).val / 5000, ht⟩ 1 * 128 ≤ (i 1).val ∧ (i 1).val < win3_6.index ⟨(i 0).val / 5000, ht⟩ 1 * 128 + 128
    rw [e1]
    omega

/-- THE RESULT ARRAY after the kernel is the layer's whole array of the arrays it found. -/
theorem final (c : Dev nD) : (dat3 V c).arrAt 6 cfg3.N = result V c :=
  (dat3 V c).arrAt_eq_of_cover 6 (result V c) (fun t _ => flushed_eq V c t) cover

end Cert.KernelIdeal.Region3

end
-- ==== Proof.Fold.lean ====
/-
  The buffer contents at the eight boundaries of the kernel's program, as functions of the launch memory.

  The fold runs: stretch, kernel 0, stretch, kernel 1, stretch, kernel 2, stretch, kernel 3. A stretch fills
  the neighbour sums (and, the first one, the two degree columns) from buffers it reads; a kernel leaves in its
  result array the layer's whole array of the arrays it finds; every other buffer a later segment reads is
  carried across the segments that do not write it (a host operation writes one buffer, a kernel writes back
  only its result array). Reading the fold forwards from the launch memory, boundary by boundary:
  * kernel 0 leaves the first layer's item rows, from the users' features summed over the user→item edges;
  * kernel 1 leaves the first layer's user rows, from the items' features summed over the item→user edges;
  * kernel 2 leaves the second layer's item rows, from the first layer's user rows summed over user→item;
  * kernel 3 leaves the second layer's user rows, from the first layer's item rows summed over item→user,
  with the degree columns of the first stretch and the weights and biases as launched throughout.
-/
import proofs.«127813_j67362267070926_2_alg».proof.Proof.Gen.KernelIdeal.Frame
import proofs.«127813_j67362267070926_2_alg».proof.Proof.HostTerms
import proofs.«127813_j67362267070926_2_alg».proof.Proof.Region0
import proofs.«127813_j67362267070926_2_alg».proof.Proof.Region1
import proofs.«127813_j67362267070926_2_alg».proof.Proof.Region2
import proofs.«127813_j67362267070926_2_alg».proof.Proof.Region3

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.Sage Cert.KernelIdeal.HostTerms
open Idealize.ShloMosaic.Pipeline (Dat)

/-- The layer's whole arrays depend on their operands only through their values. -/
theorem hidden_congr {a a' : FVec Ideal S50000x128 .f32} {d d' : FVec Ideal S50000x1 .f32} {x x' : FVec Ideal S50000x128 .f32}
    {wl wl' : FVec Ideal S128x128 .f32} {bl bl' : FVec Ideal S128 .f32} {wr wr' : FVec Ideal S128x128 .f32}
    (ha : a = a') (hd : d = d') (hx : x = x') (h1 : wl = wl') (h2 : bl = bl') (h3 : wr = wr') :
    hidden a (fun r => d (ix2 r (0 : Fin 1))) x wl bl wr = hidden a' (fun r => d' (ix2 r (0 : Fin 1))) x' wl' bl' wr' := by
  subst ha hd hx h1 h2 h3; rfl
theorem output_congr {a a' : FVec Ideal S50000x128 .f32} {d d' : FVec Ideal S50000x1 .f32} {x x' : FVec Ideal S50000x128 .f32}
    {wl wl' : FVec Ideal S128x128 .f32} {bl bl' : FVec Ideal S128 .f32} {wr wr' : FVec Ideal S128x128 .f32}
    (ha : a = a') (hd : d = d') (hx : x = x') (h1 : wl = wl') (h2 : bl = bl') (h3 : wr = wr') :
    output a (fun r => d (ix2 r (0 : Fin 1))) x wl bl wr = output a' (fun r => d' (ix2 r (0 : Fin 1))) x' wl' bl' wr' := by
  subst ha hd hx h1 h2 h3; rfl

variable (m : (ℓ : Loc nD τ sig) → Buf (Elt Ideal) ℓ) (ρ : Dev nD → PrngReg) (c : Dev nD)

/-! ## The four arrays the kernels leave, as functions of the launch memory -/

/-- First layer, item rows: users' features over the user→item edges, then the items' own features. -/
abbrev itemHidden : FVec Ideal S50000x128 .f32 :=
  hidden (neighbourSum (m ((c : Thread nD τ).loc main_arg0)) (m ((c : Thread nD τ).loc main_arg2))) (fun r => degreeColumn (m ((c : Thread nD τ).loc main_arg2)) (ix2 r (0 : Fin 1))) (m ((c : Thread nD τ).loc main_arg1)) (m ((c : Thread nD τ).loc main_arg4)) (m ((c : Thread nD τ).loc main_arg5)) (m ((c : Thread nD τ).loc main_arg6))
/-- First layer, user rows: items' features over the item→user edges, then the users' own features. -/
abbrev userHidden : FVec Ideal S50000x128 .f32 :=
  hidden (neighbourSum (m ((c : Thread nD τ).loc main_arg1)) (m ((c : Thread nD τ).loc main_arg3))) (fun r => degreeColumn (m ((c : Thread nD τ).loc main_arg3)) (ix2 r (0 : Fin 1))) (m ((c : Thread nD τ).loc main_arg0)) (m ((c : Thread nD τ).loc main_arg7)) (m ((c : Thread nD τ).loc main_arg8)) (m ((c : Thread nD τ).loc main_arg9))
/-- Second layer, item rows. -/
abbrev itemOutput : FVec Ideal S50000x128 .f32 :=
  output (neighbourSum (userHidden m c) (m ((c : Thread nD τ).loc main_arg2))) (fun r => degreeColumn (m ((c : Thread nD τ).loc main_arg2)) (ix2 r (0 : Fin 1))) (itemHidden m c) (m ((c : Thread nD τ).loc main_arg10)) (m ((c : Thread nD τ).loc main_arg11)) (m ((c : Thread nD τ).loc main_arg12))
/-- Second layer, user rows. -/
abbrev userOutput : FVec Ideal S50000x128 .f32 :=
  output (neighbourSum (itemHidden m c) (m ((c : Thread nD τ).loc main_arg3))) (fun r => degreeColumn (m ((c : Thread nD τ).loc main_arg3)) (ix2 r (0 : Fin 1))) (userHidden m c) (m ((c : Thread nD τ).loc main_arg13)) (m ((c : Thread nD τ).loc main_arg14)) (m ((c : Thread nD τ).loc main_arg15))

/-! ## Boundary 1: after the first stretch (kernel 0's entry) -/
theorem b1_sum : W1 m ρ c (Proc.devRef .tc main_v29) = neighbourSum (m ((c : Thread nD τ).loc main_arg0)) (m ((c : Thread nD τ).loc main_arg2)) := after0_sum (W0 m ρ c)
theorem b1_deg_ui : W1 m ρ c (Proc.devRef .tc main_v6) = degreeColumn (m ((c : Thread nD τ).loc main_arg2)) := after0_deg_ui (W0 m ρ c)
theorem b1_deg_iu : W1 m ρ c (Proc.devRef .tc main_v13) = degreeColumn (m ((c : Thread nD τ).loc main_arg3)) := after0_deg_iu (W0 m ρ c)
theorem b1_arg0 : W1 m ρ c (Proc.devRef .tc main_arg0) = (m ((c : Thread nD τ).loc main_arg0)) := keep0_arg0 (W0 m ρ c)
theorem b1_arg1 : W1 m ρ c (Proc.devRef .tc main_arg1) = (m ((c : Thread nD τ).loc main_arg1)) := keep0_arg1 (W0 m ρ c)
theorem b1_arg2 : W1 m ρ c (Proc.devRef .tc main_arg2) = (m ((c : Thread nD τ).loc main_arg2)) := keep0_arg2 (W0 m ρ c)
theorem b1_arg3 : W1 m ρ c (Proc.devRef .tc main_arg3) = (m ((c : Thread nD τ).loc main_arg3)) := keep0_arg3 (W0 m ρ c)
theorem b1_arg4 : W1 m ρ c (Proc.devRef .tc main_arg4) = (m ((c : Thread nD τ).loc main_arg4)) := keep0_arg4 (W0 m ρ c)
theorem b1_arg5 : W1 m ρ c (Proc.devRef .tc main_arg5) = (m ((c : Thread nD τ).loc main_arg5)) := keep0_arg5 (W0 m ρ c)
theorem b1_arg6 : W1 m ρ c (Proc.devRef .tc main_arg6) = (m ((c : Thread nD τ).loc main_arg6)) := keep0_arg6 (W0 m ρ c)
theorem b1_arg7 : W1 m ρ c (Proc.devRef .tc main_arg7) = (m ((c : Thread nD τ).loc main_arg7)) := keep0_arg7 (W0 m ρ c)
theorem b1_arg8 : W1 m ρ c (Proc.devRef .tc main_arg8) = (m ((c : Thread nD τ).loc main_arg8)) := keep0_arg8 (W0 m ρ c)
theorem b1_arg9 : W1 m ρ c (Proc.devRef .tc main_arg9) = (m ((c : Thread nD τ).loc main_arg9)) := keep0_arg9 (W0 m ρ c)
theorem b1_arg10 : W1 m ρ c (Proc.devRef .tc main_arg10) = (m ((c : Thread nD τ).loc main_arg10)) := keep0_arg10 (W0 m ρ c)
theorem b1_arg11 : W1 m ρ c (Proc.devRef .tc main_arg11) = (m ((c : Thread nD τ).loc main_arg11)) := keep0_arg11 (W0 m ρ c)
theorem b1_arg12 : W1 m ρ c (Proc.devRef .tc main_arg12) = (m ((c : Thread nD τ).loc main_arg12)) := keep0_arg12 (W0 m ρ c)
theorem b1_arg13 : W1 m ρ c (Proc.devRef .tc main_arg13) = (m ((c : Thread nD τ).loc main_arg13)) := keep0_arg13 (W0 m ρ c)
theorem b1_arg14 : W1 m ρ c (Proc.devRef .tc main_arg14) = (m ((c : Thread nD τ).loc main_arg14)) := keep0_arg14 (W0 m ρ c)
theorem b1_arg15 : W1 m ρ c (Proc.devRef .tc main_arg15) = (m ((c : Thread nD τ).loc main_arg15)) := keep0_arg15 (W0 m ρ c)

/-! ## Boundary 2: after kernel 0 -/
theorem b2_item : W2 m ρ c (Proc.devRef .tc main_v30) = itemHidden m c :=
  (W2_arr m ρ c 6).trans ((Region0.final (V1 m ρ) c).trans
    (hidden_congr (b1_sum m ρ c) (b1_deg_ui m ρ c) (b1_arg1 m ρ c) (b1_arg4 m ρ c) (b1_arg5 m ρ c) (b1_arg6 m ρ c)))
theorem b2_deg_ui : W2 m ρ c (Proc.devRef .tc main_v6) = degreeColumn (m ((c : Thread nD τ).loc main_arg2)) := ((W2_arr m ρ c 1).trans (((dat0 (V1 m ρ) c).arrAt_in 1 rfl _).trans (A_eq0 (V1 m ρ) c 1))).trans (b1_deg_ui m ρ c)
theorem b2_deg_iu : W2 m ρ c (Proc.devRef .tc main_v13) = degreeColumn (m ((c : Thread nD τ).loc main_arg3)) := (W2_of_ne m ρ c main_v13 (by decide)).trans (b1_deg_iu m ρ c)
theorem b2_arg0 : W2 m ρ c (Proc.devRef .tc main_arg0) = (m ((c : Thread nD τ).loc main_arg0)) := (W2_of_ne m ρ c main_arg0 (by decide)).trans (b1_arg0 m ρ c)
theorem b2_arg1 : W2 m ρ c (Proc.devRef .tc main_arg1) = (m ((c : Thread nD τ).loc main_arg1)) := ((W2_arr m ρ c 2).trans (((dat0 (V1 m ρ) c).arrAt_in 2 rfl _).trans (A_eq0 (V1 m ρ) c 2))).trans (b1_arg1 m ρ c)
theorem b2_arg2 : W2 m ρ c (Proc.devRef .tc main_arg2) = (m ((c : Thread nD τ).loc main_arg2)) := (W2_of_ne m ρ c main_arg2 (by decide)).trans (b1_arg2 m ρ c)
theorem b2_arg3 : W2 m ρ c (Proc.devRef .tc main_arg3) = (m ((c : Thread nD τ).loc main_arg3)) := (W2_of_ne m ρ c main_arg3 (by decide)).trans (b1_arg3 m ρ c)
theorem b2_arg7 : W2 m ρ c (Proc.devRef .tc main_arg7) = (m ((c : Thread nD τ).loc main_arg7)) := (W2_of_ne m ρ c main_arg7 (by decide)).trans (b1_arg7 m ρ c)
theorem b2_arg8 : W2 m ρ c (Proc.devRef .tc main_arg8) = (m ((c : Thread nD τ).loc main_arg8)) := (W2_of_ne m ρ c main_arg8 (by decide)).trans (b1_arg8 m ρ c)
theorem b2_arg9 : W2 m ρ c (Proc.devRef .tc main_arg9) = (m ((c : Thread nD τ).loc main_arg9)) := (W2_of_ne m ρ c main_arg9 (by decide)).trans (b1_arg9 m ρ c)
theorem b2_arg10 : W2 m ρ c (Proc.devRef .tc main_arg10) = (m ((c : Thread nD τ).loc main_arg10)) := (W2_of_ne m ρ c main_arg10 (by decide)).trans (b1_arg10 m ρ c)
theorem b2_arg11 : W2 m ρ c (Proc.devRef .tc main_arg11) = (m ((c : Thread nD τ).loc main_arg11)) := (W2_of_ne m ρ c main_arg11 (by decide)).trans (b1_arg11 m ρ c)
theorem b2_arg12 : W2 m ρ c (Proc.devRef .tc main_arg12) = (m ((c : Thread nD τ).loc main_arg12)) := (W2_of_ne m ρ c main_arg12 (by decide)).trans (b1_arg12 m ρ c)
theorem b2_arg13 : W2 m ρ c (Proc.devRef .tc main_arg13) = (m ((c : Thread nD τ).loc main_arg13)) := (W2_of_ne m ρ c main_arg13 (by decide)).trans (b1_arg13 m ρ c)
theorem b2_arg14 : W2 m ρ c (Proc.devRef .tc main_arg14) = (m ((c : Thread nD τ).loc main_arg14)) := (W2_of_ne m ρ c main_arg14 (by decide)).trans (b1_arg14 m ρ c)
theorem b2_arg15 : W2 m ρ c (Proc.devRef .tc main_arg15) = (m ((c : Thread nD τ).loc main_arg15)) := (W2_of_ne m ρ c main_arg15 (by decide)).trans (b1_arg15 m ρ c)

/-! ## Boundary 3: after the second stretch (kernel 1's entry) -/
theorem b3_sum : W3 m ρ c (Proc.devRef .tc main_v46) = neighbourSum (m ((c : Thread nD τ).loc main_arg1)) (m ((c : Thread nD τ).loc main_arg3)) :=
  (after1_sum (W2 m ρ c)).trans (congrArg₂ neighbourSum (b2_arg1 m ρ c) (b2_arg3 m ρ c))
theorem b3_item : W3 m ρ c (Proc.devRef .tc main_v30) = itemHidden m c := (keep1_v30 (W2 m ρ c)).trans (b2_item m ρ c)
theorem b3_deg_ui : W3 m ρ c (Proc.devRef .tc main_v6) = degreeColumn (m ((c : Thread nD τ).loc main_arg2)) := (keep1_v6 (W2 m ρ c)).trans (b2_deg_ui m ρ c)
theorem b3_deg_iu : W3 m ρ c (Proc.devRef .tc main_v13) = degreeColumn (m ((c : Thread nD τ).loc main_arg3)) := (keep1_v13 (W2 m ρ c)).trans (b2_deg_iu m ρ c)
theorem b3_arg0 : W3 m ρ c (Proc.devRef .tc main_arg0) = (m ((c : Thread nD τ).loc main_arg0)) := (keep1_arg0 (W2 m ρ c)).trans (b2_arg0 m ρ c)
theorem b3_arg2 : W3 m ρ c (Proc.devRef .tc main_arg2) = (m ((c : Thread nD τ).loc main_arg2)) := (keep1_arg2 (W2 m ρ c)).trans (b2_arg2 m ρ c)
theorem b3_arg3 : W3 m ρ c (Proc.devRef .tc main_arg3) = (m ((c : Thread nD τ).loc main_arg3)) := (keep1_arg3 (W2 m ρ c)).trans (b2_arg3 m ρ c)
theorem b3_arg7 : W3 m ρ c (Proc.devRef .tc main_arg7) = (m ((c : Thread nD τ).loc main_arg7)) := (keep1_arg7 (W2 m ρ c)).trans (b2_arg7 m ρ c)
theorem b3_arg8 : W3 m ρ c (Proc.devRef .tc main_arg8) = (m ((c : Thread nD τ).loc main_arg8)) := (keep1_arg8 (W2 m ρ c)).trans (b2_arg8 m ρ c)
theorem b3_arg9 : W3 m ρ c (Proc.devRef .tc main_arg9) = (m ((c : Thread nD τ).loc main_arg9)) := (keep1_arg9 (W2 m ρ c)).trans (b2_arg9 m ρ c)
theorem b3_arg10 : W3 m ρ c (Proc.devRef .tc main_arg10) = (m ((c : Thread nD τ).loc main_arg10)) := (keep1_arg10 (W2 m ρ c)).trans (b2_arg10 m ρ c)
theorem b3_arg11 : W3 m ρ c (Proc.devRef .tc main_arg11) = (m ((c : Thread nD τ).loc main_arg11)) := (keep1_arg11 (W2 m ρ c)).trans (b2_arg11 m ρ c)
theorem b3_arg12 : W3 m ρ c (Proc.devRef .tc main_arg12) = (m ((c : Thread nD τ).loc main_arg12)) := (keep1_arg12 (W2 m ρ c)).trans (b2_arg12 m ρ c)
theorem b3_arg13 : W3 m ρ c (Proc.devRef .tc main_arg13) = (m ((c : Thread nD τ).loc main_arg13)) := (keep1_arg13 (W2 m ρ c)).trans (b2_arg13 m ρ c)
theorem b3_arg14 : W3 m ρ c (Proc.devRef .tc main_arg14) = (m ((c : Thread nD τ).loc main_arg14)) := (keep1_arg14 (W2 m ρ c)).trans (b2_arg14 m ρ c)
theorem b3_arg15 : W3 m ρ c (Proc.devRef .tc main_arg15) = (m ((c : Thread nD τ).loc main_arg15)) := (keep1_arg15 (W2 m ρ c)).trans (b2_arg15 m ρ c)

/-! ## Boundary 4: after kernel 1 -/
theorem b4_user : W4 m ρ c (Proc.devRef .tc main_v47) = userHidden m c :=
  (W4_arr m ρ c 6).trans ((Region1.final (V3 m ρ) c).trans
    (hidden_congr (b3_sum m ρ c) (b3_deg_iu m ρ c) (b3_arg0 m ρ c) (b3_arg7 m ρ c) (b3_arg8 m ρ c) (b3_arg9 m ρ c)))
theorem b4_item : W4 m ρ c (Proc.devRef .tc main_v30) = itemHidden m c := (W4_of_ne m ρ c main_v30 (by decide)).trans (b3_item m ρ c)
theorem b4_deg_ui : W4 m ρ c (Proc.devRef .tc main_v6) = degreeColumn (m ((c : Thread nD τ).loc main_arg2)) := (W4_of_ne m ρ c main_v6 (by decide)).trans (b3_deg_ui m ρ c)
theorem b4_deg_iu : W4 m ρ c (Proc.devRef .tc main_v13) = degreeColumn (m ((c : Thread nD τ).loc main_arg3)) := ((W4_arr m ρ c 1).trans (((dat1 (V3 m ρ) c).arrAt_in 1 rfl _).trans (A_eq1 (V3 m ρ) c 1))).trans (b3_deg_iu m ρ c)
theorem b4_arg2 : W4 m ρ c (Proc.devRef .tc main_arg2) = (m ((c : Thread nD τ).loc main_arg2)) := (W4_of_ne m ρ c main_arg2 (by decide)).trans (b3_arg2 m ρ c)
theorem b4_arg3 : W4 m ρ c (Proc.devRef .tc main_arg3) = (m ((c : Thread nD τ).loc main_arg3)) := (W4_of_ne m ρ c main_arg3 (by decide)).trans (b3_arg3 m ρ c)
theorem b4_arg10 : W4 m ρ c (Proc.devRef .tc main_arg10) = (m ((c : Thread nD τ).loc main_arg10)) := (W4_of_ne m ρ c main_arg10 (by decide)).trans (b3_arg10 m ρ c)
theorem b4_arg11 : W4 m ρ c (Proc.devRef .tc main_arg11) = (m ((c : Thread nD τ).loc main_arg11)) := (W4_of_ne m ρ c main_arg11 (by decide)).trans (b3_arg11 m ρ c)
theorem b4_arg12 : W4 m ρ c (Proc.devRef .tc main_arg12) = (m ((c : Thread nD τ).loc main_arg12)) := (W4_of_ne m ρ c main_arg12 (by decide)).trans (b3_arg12 m ρ c)
theorem b4_arg13 : W4 m ρ c (Proc.devRef .tc main_arg13) = (m ((c : Thread nD τ).loc main_arg13)) := (W4_of_ne m ρ c main_arg13 (by decide)).trans (b3_arg13 m ρ c)
theorem b4_arg14 : W4 m ρ c (Proc.devRef .tc main_arg14) = (m ((c : Thread nD τ).loc main_arg14)) := (W4_of_ne m ρ c main_arg14 (by decide)).trans (b3_arg14 m ρ c)
theorem b4_arg15 : W4 m ρ c (Proc.devRef .tc main_arg15) = (m ((c : Thread nD τ).loc main_arg15)) := (W4_of_ne m ρ c main_arg15 (by decide)).trans (b3_arg15 m ρ c)

/-! ## Boundary 5: after the third stretch (kernel 2's entry) -/
theorem b5_sum : W5 m ρ c (Proc.devRef .tc main_v63) = neighbourSum (userHidden m c) (m ((c : Thread nD τ).loc main_arg2)) :=
  (after2_sum (W4 m ρ c)).trans (congrArg₂ neighbourSum (b4_user m ρ c) (b4_arg2 m ρ c))
theorem b5_item : W5 m ρ c (Proc.devRef .tc main_v30) = itemHidden m c := (keep2_v30 (W4 m ρ c)).trans (b4_item m ρ c)
theorem b5_user : W5 m ρ c (Proc.devRef .tc main_v47) = userHidden m c := (keep2_v47 (W4 m ρ c)).trans (b4_user m ρ c)
theorem b5_deg_ui : W5 m ρ c (Proc.devRef .tc main_v6) = degreeColumn (m ((c : Thread nD τ).loc main_arg2)) := (keep2_v6 (W4 m ρ c)).trans (b4_deg_ui m ρ c)
theorem b5_deg_iu : W5 m ρ c (Proc.devRef .tc main_v13) = degreeColumn (m ((c : Thread nD τ).loc main_arg3)) := (keep2_v13 (W4 m ρ c)).trans (b4_deg_iu m ρ c)
theorem b5_arg3 : W5 m ρ c (Proc.devRef .tc main_arg3) = (m ((c : Thread nD τ).loc main_arg3)) := (keep2_arg3 (W4 m ρ c)).trans (b4_arg3 m ρ c)
theorem b5_arg10 : W5 m ρ c (Proc.devRef .tc main_arg10) = (m ((c : Thread nD τ).loc main_arg10)) := (keep2_arg10 (W4 m ρ c)).trans (b4_arg10 m ρ c)
theorem b5_arg11 : W5 m ρ c (Proc.devRef .tc main_arg11) = (m ((c : Thread nD τ).loc main_arg11)) := (keep2_arg11 (W4 m ρ c)).trans (b4_arg11 m ρ c)
theorem b5_arg12 : W5 m ρ c (Proc.devRef .tc main_arg12) = (m ((c : Thread nD τ).loc main_arg12)) := (keep2_arg12 (W4 m ρ c)).trans (b4_arg12 m ρ c)
theorem b5_arg13 : W5 m ρ c (Proc.devRef .tc main_arg13) = (m ((c : Thread nD τ).loc main_arg13)) := (keep2_arg13 (W4 m ρ c)).trans (b4_arg13 m ρ c)
theorem b5_arg14 : W5 m ρ c (Proc.devRef .tc main_arg14) = (m ((c : Thread nD τ).loc main_arg14)) := (keep2_arg14 (W4 m ρ c)).trans (b4_arg14 m ρ c)
theorem b5_arg15 : W5 m ρ c (Proc.devRef .tc main_arg15) = (m ((c : Thread nD τ).loc main_arg15)) := (keep2_arg15 (W4 m ρ c)).trans (b4_arg15 m ρ c)

/-! ## Boundary 6: after kernel 2 -/
theorem b6_items : W6 m ρ c (Proc.devRef .tc main_v64) = itemOutput m c :=
  (W6_arr m ρ c 6).trans ((Region2.final (V5 m ρ) c).trans
    (output_congr (b5_sum m ρ c) (b5_deg_ui m ρ c) (b5_item m ρ c) (b5_arg10 m ρ c) (b5_arg11 m ρ c) (b5_arg12 m ρ c)))
theorem b6_item : W6 m ρ c (Proc.devRef .tc main_v30) = itemHidden m c := ((W6_arr m ρ c 2).trans (((dat2 (V5 m ρ) c).arrAt_in 2 rfl _).trans (A_eq2 (V5 m ρ) c 2))).trans (b5_item m ρ c)
theorem b6_user : W6 m ρ c (Proc.devRef .tc main_v47) = userHidden m c := (W6_of_ne m ρ c main_v47 (by decide)).trans (b5_user m ρ c)
theorem b6_deg_iu : W6 m ρ c (Proc.devRef .tc main_v13) = degreeColumn (m ((c : Thread nD τ).loc main_arg3)) := (W6_of_ne m ρ c main_v13 (by decide)).trans (b5_deg_iu m ρ c)
theorem b6_arg3 : W6 m ρ c (Proc.devRef .tc main_arg3) = (m ((c : Thread nD τ).loc main_arg3)) := (W6_of_ne m ρ c main_arg3 (by decide)).trans (b5_arg3 m ρ c)
theorem b6_arg13 : W6 m ρ c (Proc.devRef .tc main_arg13) = (m ((c : Thread nD τ).loc main_arg13)) := (W6_of_ne m ρ c main_arg13 (by decide)).trans (b5_arg13 m ρ c)
theorem b6_arg14 : W6 m ρ c (Proc.devRef .tc main_arg14) = (m ((c : Thread nD τ).loc main_arg14)) := (W6_of_ne m ρ c main_arg14 (by decide)).trans (b5_arg14 m ρ c)
theorem b6_arg15 : W6 m ρ c (Proc.devRef .tc main_arg15) = (m ((c : Thread nD τ).loc main_arg15)) := (W6_of_ne m ρ c main_arg15 (by decide)).trans (b5_arg15 m ρ c)

/-! ## Boundary 7: after the fourth stretch (kernel 3's entry) -/
theorem b7_sum : W7 m ρ c (Proc.devRef .tc main_v80) = neighbourSum (itemHidden m c) (m ((c : Thread nD τ).loc main_arg3)) :=
  (after3_sum (W6 m ρ c)).trans (congrArg₂ neighbourSum (b6_item m ρ c) (b6_arg3 m ρ c))
theorem b7_user : W7 m ρ c (Proc.devRef .tc main_v47) = userHidden m c := (keep3_v47 (W6 m ρ c)).trans (b6_user m ρ c)
theorem b7_deg_iu : W7 m ρ c (Proc.devRef .tc main_v13) = degreeColumn (m ((c : Thread nD τ).loc main_arg3)) := (keep3_v13 (W6 m ρ c)).trans (b6_deg_iu m ρ c)
theorem b7_items : W7 m ρ c (Proc.devRef .tc main_v64) = itemOutput m c := (keep3_v64 (W6 m ρ c)).trans (b6_items m ρ c)
theorem b7_arg13 : W7 m ρ c (Proc.devRef .tc main_arg13) = (m ((c : Thread nD τ).loc main_arg13)) := (keep3_arg13 (W6 m ρ c)).trans (b6_arg13 m ρ c)
theorem b7_arg14 : W7 m ρ c (Proc.devRef .tc main_arg14) = (m ((c : Thread nD τ).loc main_arg14)) := (keep3_arg14 (W6 m ρ c)).trans (b6_arg14 m ρ c)
theorem b7_arg15 : W7 m ρ c (Proc.devRef .tc main_arg15) = (m ((c : Thread nD τ).loc main_arg15)) := (keep3_arg15 (W6 m ρ c)).trans (b6_arg15 m ρ c)

/-! ## Boundary 8: after kernel 3 — the two results -/
/-- The second-layer user rows end at the second layer over the first layer's two arrays. -/
theorem users_out : W8 m ρ c (Proc.devRef .tc main_v81) = userOutput m c :=
  (W8_arr m ρ c 6).trans ((Region3.final (V7 m ρ) c).trans
    (output_congr (b7_sum m ρ c) (b7_deg_iu m ρ c) (b7_user m ρ c) (b7_arg13 m ρ c) (b7_arg14 m ρ c) (b7_arg15 m ρ c)))
/-- The second-layer item rows, written by kernel 2, are still there after the last stretch and kernel 3. -/
theorem items_out : W8 m ρ c (Proc.devRef .tc main_v64) = itemOutput m c := (W8_of_ne m ρ c main_v64 (by decide)).trans (b7_items m ρ c)

end Cert.KernelIdeal.Fold

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.HostLayer.lean ====
/-
  The reference's layer, as its host operations of any operands, is the layer's whole array.

  The reference computes one layer as: the neighbour sums divided by the degrees (each first raised to at
  least 1, then set as a column and repeated across the 128 columns), times Wl by a dot_general, plus the bias
  set as a row and repeated down the rows, plus the row features times Wr by a second dot_general. At the
  extended reals a dot_general of a plain matrix product is the sum over the contracted axis, the host's
  quotient is the quotient, and each broadcast reads the one entry it repeats. So entry (r, c) of that term is
  `Cert.Sage.layerAt` at (r, c) (`layerOps_eq`), and the maximum with the all-zero array that follows the
  first layer gives `Cert.Sage.hidden` (`relu_eq`).
-/
import proofs.«127813_j67362267070926_2_alg».proof.Proof.Gen.ReferenceIdeal.Read
import proofs.«127813_j67362267070926_2_alg».proof.Proof.SageLayer
import proofs.«127813_j67362267070926_2_alg».proof.Proof.LibDotGeneralAt
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Idealize.ShloMosaic Idealize.ShloMosaic.ValueIdx Cert.Sage

/-- A 50000 × 128 array times a 128 × 128 matrix by the host's dot_general: entry (p, q) is the sum over the 128
    contracted positions of the row's entries times the column's. -/
theorem dot_at (l : FVec Ideal S50000x128 .f32) (r : FVec Ideal S128x128 .f32) (p : Fin 50000) (q : Fin 128) :
    Host.dotGeneral (F := Ideal) dot_S50000x128_S128x128_S50000x128_1_0_0_1_n_n none l r (ix2 p q) = ∑ k : Fin 128, l (ix2 p k) * r (ix2 k q) := by
  simp only [Host.dotGeneral]
  exact Cert.Lib.DotGeneralAt.dotGeneral_at dot_S50000x128_S128x128_S50000x128_1_0_0_1_n_n rfl rfl
    Cert.ReferenceIdeal.Read.lhs_main_v23_0 Cert.ReferenceIdeal.Read.lhs_main_v23_1
    Cert.ReferenceIdeal.Read.rhs_main_v23_0 Cert.ReferenceIdeal.Read.rhs_main_v23_1 none _ l r p q

/-- The degrees raised to at least 1, set as a column and repeated across the 128 columns. -/
def floorColumn (deg : FVec Ideal S50000 .f32) : FVec Ideal S50000x128 .f32 :=
  broadcastInDim S50000x128 ![0, 1] bcast_S50000x1_S50000x128_0_1 (broadcastInDim S50000x1 ![0] bcast_S50000_S50000x1_0
    (maximumf deg (broadcastInDim S50000 ![] bcast_S_S50000 (constant (F := Ideal) S_ .f32 0x3F800000#32))))

/-- Entry (r, k) of that array is row r's degree raised to at least 1. -/
theorem floorColumn_at (deg : FVec Ideal S50000 .f32) (r : Fin 50000) (k : Fin 128) :
    floorColumn deg (ix2 r k) = max (deg (ix1 r)) one := by
  unfold floorColumn
  rw [broadcastInDim_apply _ bcast_S50000x1_S50000x128_0_1 _ (ix2 r k) (ix2 r (0 : Fin 1)) (fun a => match a with
        | ⟨0, _⟩ => by show r.val = if (50000 : Nat) = 1 then 0 else r.val; rw [if_neg (by decide)]
        | ⟨1, _⟩ => by show 0 = if (1 : Nat) = 1 then 0 else k.val; rw [if_pos rfl]),
      broadcastInDim_apply _ bcast_S50000_S50000x1_0 _ (ix2 r (0 : Fin 1)) (ix1 r) (fun a => match a with
        | ⟨0, _⟩ => by show r.val = if (50000 : Nat) = 1 then 0 else r.val; rw [if_neg (by decide)]),
      maximumf_apply,
      broadcastInDim_apply _ bcast_S_S50000 _ (ix1 r) ix0 (fun a => a.elim0)]
  rfl

/-- The bias set as a row and repeated down the rows. -/
def biasRows (bl : FVec Ideal S128 .f32) : FVec Ideal S50000x128 .f32 :=
  broadcastInDim S50000x128 ![0, 1] bcast_S1x128_S50000x128_0_1 (broadcastInDim S1x128 ![1] bcast_S128_S1x128_1 bl)

/-- Entry (r, c) of that array is the bias at c. -/
theorem biasRows_at (bl : FVec Ideal S128 .f32) (r : Fin 50000) (c : Fin 128) : biasRows bl (ix2 r c) = bl (ix1 c) := by
  unfold biasRows
  rw [broadcastInDim_apply _ bcast_S1x128_S50000x128_0_1 _ (ix2 r c) (ix2 (0 : Fin 1) c) (fun a => match a with
        | ⟨0, _⟩ => by show 0 = if (1 : Nat) = 1 then 0 else r.val; rw [if_pos rfl]
        | ⟨1, _⟩ => by show c.val = if (128 : Nat) = 1 then 0 else c.val; rw [if_neg (by decide)]),
      broadcastInDim_apply _ bcast_S128_S1x128_1 bl (ix2 (0 : Fin 1) c) (ix1 c) (fun a => match a with
        | ⟨0, _⟩ => by show c.val = if (128 : Nat) = 1 then 0 else c.val; rw [if_neg (by decide)])]

/-- The reference's layer as its host operations. -/
def layerOps (agg : FVec Ideal S50000x128 .f32) (deg : FVec Ideal S50000 .f32) (x : FVec Ideal S50000x128 .f32)
    (Wl : FVec Ideal S128x128 .f32) (bl : FVec Ideal S128 .f32) (Wr : FVec Ideal S128x128 .f32) : FVec Ideal S50000x128 .f32 :=
  addf (addf (Host.dotGeneral (F := Ideal) dot_S50000x128_S128x128_S50000x128_1_0_0_1_n_n none (Host.divf (F := Ideal) agg (floorColumn deg)) Wl) (biasRows bl))
    (Host.dotGeneral (F := Ideal) dot_S50000x128_S128x128_S50000x128_1_0_0_1_n_n none x Wr)

/-- It is the layer's whole array, with the degree of row r read off the flat degree array. -/
theorem layerOps_eq (agg : FVec Ideal S50000x128 .f32) (deg : FVec Ideal S50000 .f32) (x : FVec Ideal S50000x128 .f32)
    (Wl : FVec Ideal S128x128 .f32) (bl : FVec Ideal S128 .f32) (Wr : FVec Ideal S128x128 .f32) :
    layerOps agg deg x Wl bl Wr = output agg (fun r => deg (ix1 r)) x Wl bl Wr := by
  funext i
  obtain ⟨r, c, rfl⟩ : ∃ (r : Fin 50000) (c : Fin 128), i = ix2 r c := ⟨i 0, i 1, eq_ix2 i⟩
  rw [output_apply]
  unfold layerOps layerAt
  rw [addf_apply, addf_apply, dot_at, dot_at, biasRows_at]
  have hm : ∀ k : Fin 128, Host.divf (F := Ideal) agg (floorColumn deg) (ix2 r k) = Ideal.div (agg (ix2 r k)) (max (deg (ix1 r)) one) :=
    fun k => (show Host.divf (F := Ideal) agg (floorColumn deg) (ix2 r k) = Ideal.div (agg (ix2 r k)) (floorColumn deg (ix2 r k)) from rfl).trans
      (congrArg (Ideal.div (agg (ix2 r k))) (floorColumn_at deg r k))
  simp only [hm]

/-- The all-zero array the first layer is compared with. -/
def zeros : FVec Ideal S50000x128 .f32 :=
  broadcastInDim S50000x128 ![] bcast_S_S50000x128 (constant (F := Ideal) S_ .f32 0x00000000#32)

/-- The maximum of the layer's whole array with the all-zero array is the first layer's whole array. -/
theorem relu_eq (agg : FVec Ideal S50000x128 .f32) (deg : Fin 50000 → EReal) (x : FVec Ideal S50000x128 .f32)
    (Wl : FVec Ideal S128x128 .f32) (bl : FVec Ideal S128 .f32) (Wr : FVec Ideal S128x128 .f32) :
    maximumf (output agg deg x Wl bl Wr) zeros = hidden agg deg x Wl bl Wr := by
  funext i
  unfold zeros
  rw [maximumf_apply, broadcastInDim_apply _ bcast_S_S50000x128 _ i ix0 (fun a => a.elim0)]
  rfl

end Cert.ReferenceIdeal.Layer

end
-- ==== Proof.RefModel.lean ====
/-
  The reference's two results as two layers of neighbour averaging over named host chains.

  The reference builds, from an edge array `e` and a feature array `x`, the same column of destination rows,
  column of source rows (a negative number first moved up by 50000), neighbour sums (the rows of `x` gathered at
  the sources and added into an all-zero array at the destinations) and in-degrees (ones added at the
  destinations) as the kernel's program does — here without a change of float format, and with the degrees left
  as a flat vector. Its first layer is the layer's host term followed by the maximum with the all-zero array,
  its second layer the layer's host term. So each of its two results is `Cert.Sage.output` over
  `Cert.Sage.hidden` of the arguments (`users_eq`, `items_eq`): the composed terms of the reference's run
  are these by unfolding the names, and the two host terms are the whole-array functions by
  `Layer.layerOps_eq` and `Layer.relu_eq`.
-/
import proofs.«127813_j67362267070926_2_alg».proof.Proof.Gen.ReferenceIdeal.Run
import proofs.«127813_j67362267070926_2_alg».proof.Proof.HostLayer

noncomputable section

namespace Cert.ReferenceIdeal.Model

open Cert.ReferenceIdeal Cert.ReferenceIdeal.Gen Idealize.ShloMosaic Idealize.ShloMosaic.TcCoe Idealize.SL.Sem
open Idealize.ShloMosaic.ValueIdx Cert.Sage Cert.ReferenceIdeal.Layer

/-- An edge array: two rows of 800000 node numbers. -/
abbrev Edges : Type := (⟨S2x800000, .i32⟩ : BufTy).Contents (Elt Ideal)

def srcRow (e : Edges) : IVec S800000 32 :=
  shapeCast S800000 (extractStridedSlice S1x800000 ![0, 0] e slices_S2x800000_S1x800000_0_0) shapeCasts_S1x800000_S800000
def dstRow (e : Edges) : IVec S800000 32 :=
  shapeCast S800000 (extractStridedSlice S1x800000 ![1, 0] e slices_S2x800000_S1x800000_1_0) shapeCasts_S1x800000_S800000

/-- The destination row of every edge, as a column of indices. -/
def dstColumn (e : Edges) : IVec S800000x1 32 :=
  broadcastInDim S800000x1 ![0] bcast_S800000_S800000x1_0 (dstRow e)

/-- The source row of every edge, a negative number first moved up by 50000, as a column of indices. -/
def srcColumn (e : Edges) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The in-degree of every row: ones added at the edges' destinations. -/
def degree (e : Edges) : FVec Ideal S50000 .f32 :=
  Host.scatterAdd (F := Ideal) scatter_S50000_S800000x1_S800000_n_0_0_1
    (broadcastInDim S50000 ![] bcast_S_S50000 (constant (F := Ideal) S_ .f32 0x00000000#32)) (dstColumn e)
    (broadcastInDim S800000 ![] bcast_S_S800000 (constant (F := Ideal) S_ .f32 0x3F800000#32))

/-- For every destination row, the sum of its edges' source rows of `x`. -/
def neighbourSum (x : FVec Ideal S50000x128 .f32) (e : Edges) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstColumn e)
    (Host.gather gather_S50000x128_S800000x1_S800000x128_1_0_n_n_0_1_1128 x (srcColumn e))

/-- One layer over an edge array, as the reference's host operations: the second-layer form … -/
def secondOps (xs xd : FVec Ideal S50000x128 .f32) (e : Edges) (Wl : FVec Ideal S128x128 .f32) (bl : FVec Ideal S128 .f32)
    (Wr : FVec Ideal S128x128 .f32) : FVec Ideal S50000x128 .f32 :=
  layerOps (neighbourSum xs e) (degree e) xd Wl bl Wr
/-- … and the first-layer form, with the maximum with the all-zero array after it. -/
def firstOps (xs xd : FVec Ideal S50000x128 .f32) (e : Edges) (Wl : FVec Ideal S128x128 .f32) (bl : FVec Ideal S128 .f32)
    (Wr : FVec Ideal S128x128 .f32) : FVec Ideal S50000x128 .f32 :=
  maximumf (secondOps xs xd e Wl bl Wr) zeros

theorem secondOps_eq (xs xd : FVec Ideal S50000x128 .f32) (e : Edges) (Wl : FVec Ideal S128x128 .f32) (bl : FVec Ideal S128 .f32)
    (Wr : FVec Ideal S128x128 .f32) :
    secondOps xs xd e Wl bl Wr = output (neighbourSum xs e) (fun r => degree e (ix1 r)) xd Wl bl Wr :=
  layerOps_eq _ _ _ _ _ _

theorem firstOps_eq (xs xd : FVec Ideal S50000x128 .f32) (e : Edges) (Wl : FVec Ideal S128x128 .f32) (bl : FVec Ideal S128 .f32)
    (Wr : FVec Ideal S128x128 .f32) :
    firstOps xs xd e Wl bl Wr = hidden (neighbourSum xs e) (fun r => degree e (ix1 r)) xd Wl bl Wr := by
  unfold firstOps
  rw [secondOps_eq, relu_eq]

variable (m : (ℓ : Loc nD τ sig) → Buf (Elt Ideal) ℓ) (c : Dev nD)

/-- The first layer's item rows and user rows, as the reference computes them from the launch memory. -/
abbrev itemHidden : FVec Ideal S50000x128 .f32 :=
  firstOps (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))
abbrev userHidden : FVec Ideal S50000x128 .f32 :=
  firstOps (m ((c.tc : Thread nD τ).loc main_arg1)) (m ((c.tc : Thread nD τ).loc main_arg0)) (m ((c.tc : Thread nD τ).loc main_arg3))
    (m ((c.tc : Thread nD τ).loc main_arg7)) (m ((c.tc : Thread nD τ).loc main_arg8)) (m ((c.tc : Thread nD τ).loc main_arg9))

set_option maxRecDepth 8192 in
/-- The run's first result (second-layer user rows) is the second-layer host term over the first layer's. -/
theorem users_ops : Cert.ReferenceIdeal.Value.res_main_v117 (F := Ideal) m c
    = secondOps (itemHidden m c) (userHidden m c) (m ((c.tc : Thread nD τ).loc main_arg3))
        (m ((c.tc : Thread nD τ).loc main_arg13)) (m ((c.tc : Thread nD τ).loc main_arg14)) (m ((c.tc : Thread nD τ).loc main_arg15)) := by
  unfold Cert.ReferenceIdeal.Value.res_main_v117
  rfl

set_option maxRecDepth 8192 in
/-- The run's second result (second-layer item rows) likewise. -/
theorem items_ops : Cert.ReferenceIdeal.Value.res_main_v88 (F := Ideal) m c
    = secondOps (userHidden m c) (itemHidden m c) (m ((c.tc : Thread nD τ).loc main_arg2))
        (m ((c.tc : Thread nD τ).loc main_arg10)) (m ((c.tc : Thread nD τ).loc main_arg11)) (m ((c.tc : Thread nD τ).loc main_arg12)) := by
  unfold Cert.ReferenceIdeal.Value.res_main_v88
  rfl

end Cert.ReferenceIdeal.Model

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Bridge.lean ====
/-
  The two programs compute one function of the arguments.

  Both are two layers of neighbour averaging over two edge arrays: given how neighbour sums and degrees are
  taken (`nS`, `dg`), the second-layer user rows are the layer over (first-layer item rows summed over the
  item→user edges, the user rows' degrees, the first-layer user rows), and symmetrically for the item rows
  (`users`, `items`). The kernel's program and the reference take neighbour sums and degrees the same way:
  * neighbour sums — the same gather and the same accumulating scatter; the kernel's program passes the
    features through the half-precision format and back, which is the identity on the extended reals
    (`neighbourSum_eq`, by unfolding);
  * degrees — the kernel's program keeps them as a column and the kernel reads entry (r, 0); the reference
    keeps them flat and reads entry r; a flat vector set as a column holds at (r, 0) what it held at r
    (`degree_eq`).
  So the kernel's two result arrays, read off its fold, are the reference's two result terms at the same
  arguments (`users_agree`, `items_agree`).
-/
import proofs.«127813_j67362267070926_2_alg».proof.Proof.Fold
import proofs.«127813_j67362267070926_2_alg».proof.Proof.RefModel
import proofs.«127813_j67362267070926_2_alg».proof.Proof.LibKeepdimsColumn

noncomputable section

namespace Cert.Bridge

open Idealize.ShloMosaic Idealize.ShloMosaic.TcCoe Idealize.SL.Sem Idealize.ShloMosaic.ValueIdx Cert.Sage

/-- An edge array: two rows of 800000 node numbers. -/
abbrev Edges : Type := Cert.KernelIdeal.HostTerms.Edges

/-- Second-layer user rows from the arguments, given how neighbour sums and degrees are taken. -/
def users (nS : FVec Ideal ⟨2, ![50000, 128]⟩ .f32 → Edges → FVec Ideal ⟨2, ![50000, 128]⟩ .f32) (dg : Edges → Fin 50000 → EReal)
    (a0 a1 : FVec Ideal ⟨2, ![50000, 128]⟩ .f32) (e2 e3 : Edges) (w4 : FVec Ideal ⟨2, ![128, 128]⟩ .f32) (w5 : FVec Ideal ⟨1, ![128]⟩ .f32) (w6 w7 : FVec Ideal ⟨2, ![128, 128]⟩ .f32) (w8 : FVec Ideal ⟨1, ![128]⟩ .f32) (w9 w13 : FVec Ideal ⟨2, ![128, 128]⟩ .f32) (w14 : FVec Ideal ⟨1, ![128]⟩ .f32) (w15 : FVec Ideal ⟨2, ![128, 128]⟩ .f32) : FVec Ideal ⟨2, ![50000, 128]⟩ .f32 :=
  output (nS (hidden (nS a0 e2) (dg e2) a1 w4 w5 w6) e3) (dg e3) (hidden (nS a1 e3) (dg e3) a0 w7 w8 w9) w13 w14 w15

/-- Second-layer item rows likewise. -/
def items (nS : FVec Ideal ⟨2, ![50000, 128]⟩ .f32 → Edges → FVec Ideal ⟨2, ![50000, 128]⟩ .f32) (dg : Edges → Fin 50000 → EReal)
    (a0 a1 : FVec Ideal ⟨2, ![50000, 128]⟩ .f32) (e2 e3 : Edges) (w4 : FVec Ideal ⟨2, ![128, 128]⟩ .f32) (w5 : FVec Ideal ⟨1, ![128]⟩ .f32) (w6 w7 : FVec Ideal ⟨2, ![128, 128]⟩ .f32) (w8 : FVec Ideal ⟨1, ![128]⟩ .f32) (w9 w10 : FVec Ideal ⟨2, ![128, 128]⟩ .f32) (w11 : FVec Ideal ⟨1, ![128]⟩ .f32) (w12 : FVec Ideal ⟨2, ![128, 128]⟩ .f32) : FVec Ideal ⟨2, ![50000, 128]⟩ .f32 :=
  output (nS (hidden (nS a1 e3) (dg e3) a0 w7 w8 w9) e2) (dg e2) (hidden (nS a0 e2) (dg e2) a1 w4 w5 w6) w10 w11 w12

/-- The two programs take neighbour sums the same way. -/
theorem neighbourSum_eq : (fun (x : FVec Ideal ⟨2, ![50000, 128]⟩ .f32) (e : Edges) => Cert.KernelIdeal.HostTerms.neighbourSum x e)
    = fun x e => Cert.ReferenceIdeal.Model.neighbourSum x e := rfl

/-- The kernel's degree column at (r, 0) is the reference's flat degree at r. -/
theorem degree_eq : (fun (e : Edges) (r : Fin 50000) => Cert.KernelIdeal.HostTerms.degreeColumn e (ix2 r (0 : Fin 1)))
    = fun e r => Cert.ReferenceIdeal.Model.degree e (ix1 r) := by
  funext e r
  unfold Cert.KernelIdeal.HostTerms.degreeColumn
  rw [Cert.LibKeepdims.shapeCast_a_a1_apply]
  rfl

section Kernel
open Cert.KernelIdeal
variable (m : (ℓ : Loc nD τ sig) → Buf (Elt Ideal) ℓ) (c : Dev nD)

/-- The kernel's second-layer user rows, read off its fold, are `users` of its arguments. -/
theorem kernel_users : Cert.KernelIdeal.Fold.userOutput m c
    = users (fun x e => Cert.KernelIdeal.HostTerms.neighbourSum x e) (fun e r => Cert.KernelIdeal.HostTerms.degreeColumn e (ix2 r (0 : Fin 1)))
        (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg13)) (m ((c : Thread nD τ).loc main_arg14)) (m ((c : Thread nD τ).loc main_arg15)) := rfl

theorem kernel_items : Cert.KernelIdeal.Fold.itemOutput m c
    = items (fun x e => Cert.KernelIdeal.HostTerms.neighbourSum x e) (fun e r => Cert.KernelIdeal.HostTerms.degreeColumn e (ix2 r (0 : Fin 1)))
        (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := rfl
end Kernel

section Reference
open Cert.ReferenceIdeal
variable (m : (ℓ : Loc nD τ sig) → Buf (Elt Ideal) ℓ) (c : Dev nD)

/-- The reference's first result is `users` of its arguments. -/
theorem reference_users : Cert.ReferenceIdeal.Value.res_main_v117 (F := Ideal) m c
    = users (fun x e => Cert.ReferenceIdeal.Model.neighbourSum x e) (fun e r => Cert.ReferenceIdeal.Model.degree e (ix1 r))
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg13)) (m ((c.tc : Thread nD τ).loc main_arg14)) (m ((c.tc : Thread nD τ).loc main_arg15)) := by
  rw [Cert.ReferenceIdeal.Model.users_ops, Cert.ReferenceIdeal.Model.secondOps_eq]
  simp only [Cert.ReferenceIdeal.Model.firstOps_eq]
  rfl

/-- The reference's second result is `items` of its arguments. -/
theorem reference_items : Cert.ReferenceIdeal.Value.res_main_v88 (F := Ideal) m c
    = items (fun x e => Cert.ReferenceIdeal.Model.neighbourSum x e) (fun e r => Cert.ReferenceIdeal.Model.degree e (ix1 r))
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) := by
  rw [Cert.ReferenceIdeal.Model.items_ops, Cert.ReferenceIdeal.Model.secondOps_eq]
  simp only [Cert.ReferenceIdeal.Model.firstOps_eq]
  rfl
end Reference

/-! ## The two programs' results agree -/

section Agree
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories that agree on the sixteen arguments, the reference's first result term is the kernel's
    second-layer user rows. -/
theorem users_agree
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v117 (F := Ideal) m' c = Cert.KernelIdeal.Fold.userOutput m c := by
  obtain ⟨h0, h1, h2, h3, h4, h5, h6, h7, h8, h9, h10, h11, h12, h13, h14, h15⟩ := h
  rw [reference_users, kernel_users, neighbourSum_eq, degree_eq, h0, h1, h2, h3, h4, h5, h6, h7, h8, h9, h13, h14, h15]

/-- … and its second result term the kernel's second-layer item rows. -/
theorem items_agree
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v88 (F := Ideal) m' c = Cert.KernelIdeal.Fold.itemOutput m c := by
  obtain ⟨h0, h1, h2, h3, h4, h5, h6, h7, h8, h9, h10, h11, h12, h13, h14, h15⟩ := h
  rw [reference_items, kernel_items, neighbourSum_eq, degree_eq, h0, h1, h2, h3, h4, h5, h6, h7, h8, h9, h10, h11, h12]
end Agree

end Cert.Bridge

end
-- ==== Proof.lean ====
/-
  A two-layer neighbour-averaging network over a bipartite graph of 50000 users and 50000 items, as a Pallas
  kernel per layer and node type, against its plain array reference: both programs end with equal results on
  the extended reals.

  A layer takes, for each destination row r, the sum agg[r, ·] of the source rows' features over the edges into
  r and the number deg[r] of those edges, and returns
      (Σ_k (agg[r, k] / max(deg[r], 1)) · Wl[k, c] + bl[c]) + Σ_k x[r, k] · Wr[k, c]
  at (r, c); the first layer is followed by the maximum with zero. The reference does this with whole-array
  operations. The kernel's program builds agg and deg with the same gather and accumulating scatters on the
  host and hands the rest to a kernel that works through the 50000 rows in ten blocks of 5000; the degrees,
  which depend on the edges only, are built once per edge array and used by both layers.

  Why the two agree, entry by entry, with no use of the inputs' finiteness:
  * an entry of the layer depends on row r of agg, deg and x only, so a block of 5000 rows of the result is the
    layer of the same 5000 rows of the operands, and the ten blocks tile the result (Proof/Region0 … Region3,
    over the stored value of one block read at an entry, Proof/BodyAt);
  * a matrix product on the matrix unit into a zero accumulator and a dot_general on the host are the same sum
    over the contracted axis, added in the same order to the bias and to each other; a change of float format
    is the identity (Proof/BodyAt, Proof/HostLayer);
  * the buffer contents of the kernel's program at each of its eight boundaries — four stretches of host
    operations, each followed by a kernel — are read forwards from the launch memory (Proof/KernelRun,
    Proof/HostTerms, Proof/Fold), giving its two results as the second layer over the first layer's arrays;
  * the reference's two result terms are the same two-layer function of the arguments (Proof/RefModel), the
    neighbour sums being taken by the same operations and the degree column at (r, 0) being the flat degree
    at r (Proof/Bridge).
  The three frames are the generated ones (the reference's is its generated run with the results dropped);
  the ideal pass rewrote nothing, so `preserves` is trivial.
-/
import proofs.«127813_j67362267070926_2_alg».proof.Defs
import proofs.«127813_j67362267070926_2_alg».proof.Proof.Gen.Kernel
import proofs.«127813_j67362267070926_2_alg».proof.Proof.Gen.Kernel.Frame
import proofs.«127813_j67362267070926_2_alg».proof.Proof.Gen.KernelIdeal
import proofs.«127813_j67362267070926_2_alg».proof.Proof.Gen.KernelIdeal.Frame
import proofs.«127813_j67362267070926_2_alg».proof.Proof.Gen.ReferenceIdeal
import proofs.«127813_j67362267070926_2_alg».proof.Proof.Gen.Pre_finite_inputs
import proofs.«127813_j67362267070926_2_alg».proof.Proof.Gen.ReferenceIdeal.Run
import proofs.«127813_j67362267070926_2_alg».proof.Proof.Gen.ReferenceIdeal.Read
import proofs.«127813_j67362267070926_2_alg».proof.Proof.KernelRun
import proofs.«127813_j67362267070926_2_alg».proof.Proof.Fold
import proofs.«127813_j67362267070926_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization is the program's own text read on the extended reals: nothing was rewritten. -/
theorem preserves : Cert.preserves_Kernel_KernelIdeal := trivial

/-- Both idealized programs end at the second layer over the first layer's arrays of the shared arguments:
    the kernel's program by its fold (`Fold.users_out`, `Fold.items_out`), the reference by its run's two
    terms (`Bridge.users_agree`, `Bridge.items_agree`). -/
theorem algebraic : Cert.algebraic_KernelIdeal_ReferenceIdeal := by
  intro m ρ m' ρ' _ hagree
  refine ⟨fun c => Cert.KernelIdeal.Fold.userOutput m c, fun c => Cert.KernelIdeal.Fold.itemOutput m c, ?_, ?_⟩
  · exact (θ_run Cert.KernelIdeal.defs _ _).mono
      (fun r h c => ⟨(h c).1.trans (Cert.KernelIdeal.Fold.users_out m ρ c),
        (h c).2.1.trans (Cert.KernelIdeal.Fold.items_out m ρ c), (h c).2.2⟩)
      (Cert.KernelIdeal.Results.run (F := Ideal) m ρ)
  · exact (θ_run Cert.ReferenceIdeal.defs _ _).mono
      (fun r h c => ⟨(h c).1.trans (Cert.Bridge.users_agree m m' c (hagree c)),
        (h c).2.1.trans (Cert.Bridge.items_agree m m' c (hagree c)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
